-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S2000x256 : Shape := ⟨2, ![2000, 256]⟩
abbrev S2000x64 : Shape := ⟨2, ![2000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 128
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .f32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x1, .f32⟩
  | .hbm, ⟨61, _⟩ => ⟨S850000x64, .f32⟩
  | .hbm, ⟨62, _⟩ => ⟨S850000x64, .f32⟩
  | .hbm, ⟨63, _⟩ => ⟨S_, .f32⟩
  | .hbm, ⟨64, _⟩ => ⟨S50000x64, .f32⟩
  | .hbm, ⟨65, _⟩ => ⟨S850000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x64, .f32⟩
  | .hbm, ⟨117, _⟩ => ⟨S850000x1, .f32⟩
  | .hbm, ⟨118, _⟩ => ⟨S850000x64, .f32⟩
  | .hbm, ⟨119, _⟩ => ⟨S850000x64, .f32⟩
  | .hbm, ⟨120, _⟩ => ⟨S_, .f32⟩
  | .hbm, ⟨121, _⟩ => ⟨S50000x64, .f32⟩
  | .hbm, ⟨122, _⟩ => ⟨S850000x1, .i32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S1x1, .f32⟩
  | .hbm, ⟨127, _⟩ => ⟨S50000x1, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x1, .f32⟩
  | .local _ .vmem, ⟨23, _⟩ => ⟨S1x1, .f32⟩
  | .local _ .vmem, ⟨24, _⟩ => ⟨S2000x1, .f32⟩
  | .local _ .vmem, ⟨25, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x256_S256x64_S2000x64_1_0_0_1_n_n_wf : DotDims.WF S2000x256 S256x64 S2000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S50000x256, .f32⟩
  | 1 => ⟨S2x800000, .i32⟩
  | 2 => ⟨S256x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S1x800000, .i32⟩
  | 9 => ⟨S800000, .i32⟩
  | 10 => ⟨S1x800000, .i32⟩
  | 11 => ⟨S800000, .i32⟩
  | 12 => ⟨S50000x64, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x64, .f32⟩
  | 60 => ⟨S850000x1, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S_, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x1, .f32⟩
  | 122 => ⟨S850000x64, .f32⟩
  | 123 => ⟨S850000x64, .f32⟩
  | 124 => ⟨S_, .f32⟩
  | 125 => ⟨S50000x64, .f32⟩
  | 126 => ⟨S850000x1, .i32⟩
  | 127 => ⟨S50000x64, .f32⟩
  | _ => ⟨S50000x256, .f32⟩

abbrev hbmTy0_1 (i : Nat) : BufTy := match i % 128 with
  | 0 => ⟨S1x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x1, .f32⟩
  | 7 => ⟨S1x1, .f32⟩
  | 8 => ⟨S50000x1, .f32⟩
  | 9 => ⟨S50000x1, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S_, .f32⟩
  | 16 => ⟨S50000x1, .f32⟩
  | 17 => ⟨S50000x1, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call3_cst : Ref sig .tc := ⟨.hbm, 131, rfl⟩
abbrev main_call3_v0 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized program's run, with its result buffer named.

  The program is five row-tiled evaluations among stretches of array operations. Run from any memory with zero
  counters, every weakly fair execution terminates, nothing faulting, and every buffer that outlives the run ends at
  the contents the boundary-by-boundary fold of the program assigns it: the launch memory, rewritten by each stretch
  of array operations in order and, at each tiled evaluation, by what the evaluation's write-backs leave in its
  output array. This module states that of the result buffer beside the eight argument buffers, which end as
  launched. What the fold's last stage holds at the result buffer is computed in KernelChain.lean.
-/
import proofs.«142583_j82119774699583_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the fold's last stage and the arguments as
    launched. -/
theorem run : θ_run defs (onTc (τ := τ) (main (F := F))) ⟨m, fun _ => 0, ρ⟩ (fun r => ∀ c : Dev nD,
      r.2.mem ((c.tc : Thread nD τ).loc main_v91) = W13 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v91 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.ValueRun

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowMaps.lean ====
/-
  Row maps over the extended reals: arrays whose every row is a function of the matching row of an operand.

  `mapRows f A` is the `[a, J]` array whose row `r` is `f` of row `r` of the `[a, K]` array `A`. An array is
  `mapRows f A` as soon as each of its rows is `f` of the matching row of `A` (`eq_mapRows`), whatever the number
  of rows — so one row fact serves a block of rows and the whole array; and `mapRows f A` read at an index whose row
  is `r` needs only a row that agrees with row `r` of `A` (`mapRows_apply_of_row`): that is all a row-tiled evaluation
  of a node-wise layer needs. Three row functions of layered networks are named: the projection of a row by a weight
  matrix, `j ↦ ∑ k, h k · w[k, j]`; the shifted rectifier, `j ↦ max (h j + b j) z`; and the logistic score,
  `j ↦ logistic ((∑ k, h k · w[k, j]) + b j)`. Equal operands give equal row maps (the `_congr` lemmas), and the one
  row of a vector viewed as a `[1, J]` array is the vector (`rowOf_vector_as_row`). Rows and the array operations
  read on a row are LibRowLayers.lean's.
-/
import proofs.«142583_j82119774699583_1_alg».proof.Proof.LibRowLayers

noncomputable section

namespace Cert.Layers

open Idealize.ShloMosaic Idealize.ShloMosaic.ValueIdx Cert.RowLayers

/-- The array whose row `r` is `f` of row `r` of `A`. -/
def mapRows {a K J : ℕ} (f : (Fin K → EReal) → Fin J → EReal) (A : (⟨2, ![a, K]⟩ : Shape).Idx → EReal) :
    (⟨2, ![a, J]⟩ : Shape).Idx → EReal :=
  fun i => f (rowOf A (i 0)) (i 1)

theorem mapRows_ix2 {a K J : ℕ} (f : (Fin K → EReal) → Fin J → EReal) (A : (⟨2, ![a, K]⟩ : Shape).Idx → EReal)
    (r : Fin a) (q : Fin J) : mapRows f A (ix2 r q) = f (rowOf A r) q := rfl

/-- An array each of whose rows is `f` of the matching row of `A` is `mapRows f A`. -/
theorem eq_mapRows {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = mapRows f A :=
  funext fun i => (apply_eq_rowOf X i).trans (congrFun (h (i 0)) (i 1))

/-- `mapRows f A` at an index whose row coordinate is `r` and whose column coordinate is `q`, given a row `h`
    that agrees with row `r` of `A`. -/
theorem mapRows_apply_of_row {a K J : ℕ} (f : (Fin K → EReal) → Fin J → EReal) (A : (⟨2, ![a, K]⟩ : Shape).Idx → EReal)
    (i : (⟨2, ![a, J]⟩ : Shape).Idx) (r : Fin a) (q : Fin J) (hi : i = ix2 r q) (h : Fin K → EReal)
    (hrow : ∀ k : Fin K, h k = A (ix2 r k)) : f h q = mapRows f A i := by
  subst hi
  rw [mapRows_ix2]
  exact congrArg (fun g => f g q) (funext hrow)

/-- The projection of a row by a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- The shifted rectifier of a row: `j ↦ max (h j + b j) z`. -/
def shiftRelu {J : ℕ} (z : EReal) (b : Fin J → EReal) (h : Fin J → EReal) : Fin J → EReal :=
  relu z (fun j => h j + b j)

/-- The scoring head on a row: `j ↦ logistic ((∑ k, h k · w[k, j]) + b j)`. -/
def score {K J : ℕ} (w : (⟨2, ![K, J]⟩ : Shape).Idx → EReal) (b : Fin J → EReal) (h : Fin K → EReal) :
    Fin J → EReal :=
  fun j => Ideal.logistic (project w h j + b j)

/-! ## Equal operands give equal layers -/

theorem mapRows_project_congr {a K J : ℕ} {w w' : (⟨2, ![K, J]⟩ : Shape).Idx → EReal} {A A' : (⟨2, ![a, K]⟩ : Shape).Idx → EReal}
    (hw : w = w') (hA : A = A') : mapRows (project w) A = mapRows (project w') A' := by
  subst hw; subst hA; rfl

theorem mapRows_shiftRelu_congr {a J : ℕ} (z : EReal) {b b' : Fin J → EReal} {A A' : (⟨2, ![a, J]⟩ : Shape).Idx → EReal}
    (hb : b = b') (hA : A = A') : mapRows (shiftRelu z b) A = mapRows (shiftRelu z b') A' := by
  subst hb; subst hA; rfl

theorem mapRows_score_congr {a K J : ℕ} {w w' : (⟨2, ![K, J]⟩ : Shape).Idx → EReal} {b b' : Fin J → EReal}
    {A A' : (⟨2, ![a, K]⟩ : Shape).Idx → EReal} (hw : w = w') (hb : b = b') (hA : A = A') :
    mapRows (score w b) A = mapRows (score w' b') A' := by
  subst hw; subst hb; subst hA; rfl

/-- The one row of a vector viewed as a `[1, J]` array is the vector, entry by entry. -/
theorem rowOf_vector_as_row {J : ℕ} (x : (⟨1, ![J]⟩ : Shape).Idx → EReal) (h : (⟨1, ![J]⟩ : Shape).ShapeCasts ⟨2, ![1, J]⟩) :
    rowOf (a := 1) (b := J) (shapeCast ⟨2, ![1, J]⟩ x h) 0 = fun j => x (ix1 j) :=
  funext fun j => shapeCast_a_1a_apply x h 0 j

end Cert.Layers

end
-- ==== Proof.ProjectIn.lean ====
/-
  The first projection, `x · W1`, evaluated in 25 blocks of 2000 rows.

  At each of the 25 grid points the body multiplies a block of 2000 rows of `x` by the whole of `W1` into a zero
  accumulator; a change of float format is the identity on extended reals. Row `p` of the block's result is the
  projection of row `p` of the block (`body_row`), row `p` of block `t` of the operand is row `2000·t + p` of the
  operand (`operand_row`), and the weight block is the whole weight array at every point (`weights_whole`). So what
  point `t` writes back is block `t` of ONE array — the array whose every row is the projection of the matching row
  of the operand (`written_back`) —, the 25 blocks tile the 50000 rows (`tiles`), and the output array ends
  holding that array (`result`), whatever the operand arrays hold when the evaluation starts.
-/
import proofs.«142583_j82119774699583_1_alg».proof.Proof.Gen.KernelIdeal.Frame
import proofs.«142583_j82119774699583_1_alg».proof.Proof.LibRowMaps

set_option maxRecDepth 16384

noncomputable section

namespace Cert.KernelIdeal.ProjectIn

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-- The product's dimension numbers say "rows times columns". -/
theorem rowsTimesCols : RowsTimesCols dot_S2000x256_S256x64_S2000x64_1_0_0_1_n_n where
  rank := rfl
  size := rfl
  lhs0 := fun j q => by
    unfold DotDims.lhsIdx
    rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
    rfl
  lhs1 := fun j q => dot_S2000x256_S256x64_S2000x64_1_0_0_1_n_n.lhsIdx_val_of_single rfl j q
  rhs0 := fun j q => dot_S2000x256_S256x64_S2000x64_1_0_0_1_n_n.rhsIdx_val_of_single rfl j q
  rhs1 := fun j q => by
    unfold DotDims.rhsIdx
    rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
    rfl

/-- Row `p` of the body's result is the projection of row `p` of its first operand by its second. -/
theorem body_row (x : Vec Ideal S2000x256 .f32) (w : Vec Ideal S256x64 .f32) (p : Fin 2000) :
    rowOf (a := 2000) (b := 64) (k0_pay1 (F := Ideal) x w) p = project (K := 256) (J := 64) w (rowOf (a := 2000) (b := 256) x p) := by
  unfold k0_pay1
  exact rowOf_matmul_zero rowsTimesCols none _ _ p

theorem zero_offsets : (![0, 0] : Fin 2 → Nat) = fun _ => 0 := funext fun a => by fin_cases a <;> rfl

/-- The windows' block indices at every grid point: the row-tiled operand and the output are at block `t` of the
    rows, the weights at their only block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem points_lt (t : Fin cfg0.N) : t.val < 25 := lt_of_lt_of_eq t.isLt N_0

variable (V : (c : Dev nD) → (b : Ref sig .tc) → Buf (Elt Ideal) ((c : Thread nD τ).loc b))

/-- Row `p` of block `t` of the row-tiled operand is row `2000·t + p` of the operand. -/
theorem operand_row (c : Dev nD) (t : Fin cfg0.N) (p : Fin 2000) (k : Fin 256) (r : Fin 50000) (hr : r.val = t.val * 2000 + p.val) :
    iblk0 V c 0 t (ix2 p k) = V c main_arg0 (ix2 r k) := by
  show V c main_arg0 (((cfg0.win 0).blk t).view.emb (ix2 p k)) = V c main_arg0 (ix2 r k)
  obtain ⟨e0, e1, -⟩ := block_indices t
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 256 + 1 * k.val = k.val; omega
  rw [h]

/-- The weight block is the whole weight array, at every point. -/
theorem weights_whole (c : Dev nD) (t : Fin cfg0.N) : iblk0 V c 1 t = V c main_arg2 := by
  funext y
  show V c main_arg2 (((cfg0.win 1).blk t).view.emb y) = V c main_arg2 y
  obtain ⟨-, -, e2, e3, -⟩ := block_indices t
  have h : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 64 + 1 * (y 1).val = (y 1).val; omega
  rw [h]

/-- WHAT POINT `t` WRITES BACK is block `t` of the array whose every row is the projection of the operand's row. -/
theorem written_back (c : Dev nD) (t : Fin cfg0.N) :
    (dat0 V c).flushed 2 t = ((cfg0.win 2).blk t).view.read (Elt Ideal)
      (mapRows (a := 50000) (K := 256) (J := 64) (project (K := 256) (J := 64) (V c main_arg2)) (V c main_arg0)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  obtain ⟨-, -, -, -, e4, e5⟩ := block_indices t
  have ht := points_lt t
  funext j
  show k0_pay1 (F := Ideal) (iblk0 V c 0 t) (iblk0 V c 1 t) j
    = mapRows (a := 50000) (K := 256) (J := 64) (project (K := 256) (J := 64) (V c main_arg2)) (V c main_arg0) (((cfg0.win 2).blk t).view.emb j)
  have hj0 : (j 0).val < 2000 := (j 0).isLt
  have hj1 : (j 1).val < 64 := (j 1).isLt
  refine (apply_eq_rowOf (a := 2000) (b := 64) (k0_pay1 (F := Ideal) (iblk0 V c 0 t) (iblk0 V c 1 t)) j).trans ?_
  refine (congrFun (body_row (iblk0 V c 0 t) (iblk0 V c 1 t) (j 0)) (j 1)).trans ?_
  refine (congrArg (fun w => project (K := 256) (J := 64) w (rowOf (a := 2000) (b := 256) (iblk0 V c 0 t) (j 0)) (j 1)) (weights_whole V c t)).trans ?_
  refine mapRows_apply_of_row (a := 50000) (K := 256) (J := 64) (project (K := 256) (J := 64) (V c main_arg2)) (V c main_arg0) _
    ⟨t.val * 2000 + (j 0).val, by omega⟩ (j 1) ?_ (rowOf (a := 2000) (b := 256) (iblk0 V c 0 t) (j 0)) (fun k => operand_row V c t (j 0) k _ rfl)
  funext a; apply Fin.ext
  match a with
  | ⟨0, _⟩ => show win0_2.index t (0 : Fin 2) * 2000 + 1 * (j 0).val = t.val * 2000 + (j 0).val; omega
  | ⟨1, _⟩ => show win0_2.index t (1 : Fin 2) * 64 + 1 * (j 1).val = (j 1).val; omega

/-- An index of the output array is in point `t`'s block iff each coordinate is in the block's range on its axis. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- The 25 blocks tile the output: row `r` is in block `r / 2000`. -/
theorem tiles (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hq : (i 0).val / 2000 < cfg0.N := lt_of_lt_of_eq (by omega : (i 0).val / 2000 < 25) N_0.symm
  obtain ⟨-, -, -, -, e4, e5⟩ := block_indices ⟨(i 0).val / 2000, hq⟩
  have e4' : win0_2.index ⟨(i 0).val / 2000, hq⟩ (0 : Fin 2) = (i 0).val / 2000 := e4
  refine ⟨⟨(i 0).val / 2000, hq⟩, flush0_2 _, ?_⟩
  rw [mem_block]
  intro a
  match a with
  | ⟨0, _⟩ => show win0_2.index ⟨(i 0).val / 2000, hq⟩ (0 : Fin 2) * 2000 ≤ (i 0).val ∧ (i 0).val < win0_2.index ⟨(i 0).val / 2000, hq⟩ (0 : Fin 2) * 2000 + 2000; omega
  | ⟨1, _⟩ => show win0_2.index ⟨(i 0).val / 2000, hq⟩ (1 : Fin 2) * 64 ≤ (i 1).val ∧ (i 1).val < win0_2.index ⟨(i 0).val / 2000, hq⟩ (1 : Fin 2) * 64 + 64; omega

/-- THE OUTPUT ARRAY after the 25 points: every row the projection of the operand's row. -/
theorem result (c : Dev nD) : (dat0 V c).arrAt 2 cfg0.N
    = mapRows (a := 50000) (K := 256) (J := 64) (project (K := 256) (J := 64) (V c main_arg2)) (V c main_arg0) :=
  (dat0 V c).arrAt_eq_of_cover 2 _ (fun t _ => written_back V c t) tiles

end Cert.KernelIdeal.ProjectIn

end
-- ==== Proof.RectifyFirst.lean ====
/-
  The first bias and rectifier, `max (agg1 + b1) 0`, evaluated in 25 blocks of 2000 rows.

  At each of the 25 grid points the body adds the one-row bias array to every row of a block of 2000 rows of the
  aggregated features and takes the maximum with zero. Row `p` of the block's result is the shifted rectifier of
  row `p` of the block (`body_row`), row `p` of block `t` of the operand is row `2000·t + p` of the operand
  (`operand_row`), and the bias block is the whole bias row at every point (`bias_whole`). So what point `t` writes
  back is block `t` of ONE array — the array whose every row is the shifted rectifier of the matching row of the
  operand (`written_back`) —, the 25 blocks tile the 50000 rows (`tiles`), and the output array ends holding that
  array (`result`), whatever the operand arrays hold when the evaluation starts (the first hidden layer).
-/
import proofs.«142583_j82119774699583_1_alg».proof.Proof.Gen.KernelIdeal.Frame
import proofs.«142583_j82119774699583_1_alg».proof.Proof.LibRowMaps

set_option maxRecDepth 16384

noncomputable section

namespace Cert.KernelIdeal.RectifyFirst

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-- Row `p` of the body's result is the shifted rectifier of row `p` of its first operand, the shift the one row of
    its second. -/
theorem body_row (x : Vec Ideal S2000x64 .f32) (b : Vec Ideal S1x64 .f32) (p : Fin 2000) :
    rowOf (a := 2000) (b := 64) (k1_pay1 (F := Ideal) x b) p
      = shiftRelu (J := 64) (Scalar.ofBits (F := Ideal) .f32 0x00000000#32) (rowOf (a := 1) (b := 64) b 0) (rowOf (a := 2000) (b := 64) x p) := by
  unfold k1_pay1
  show rowOf (a := 2000) (b := 64) (maximumf (addf (shapeCast S2000x64 x shapeCasts_S2000x64_S2000x64) (broadcastTo S2000x64 (shapeCast S1x64 b shapeCasts_S1x64_S1x64) broadcasts_S1x64_S2000x64)) (broadcast S2000x64 (Scalar.ofBits (F := Ideal) .f32 0x00000000#32))) p = _
  rw [shapeCast_self, shapeCast_self, rowOf_maximumf_splat, rowOf_addf, rowOf_broadcastTo]
  rfl

theorem zero_offsets : (![0, 0] : Fin 2 → Nat) = fun _ => 0 := funext fun a => by fin_cases a <;> rfl

/-- The windows' block indices at every grid point: the row-tiled operand and the output are at block `t` of the
    rows, the bias row at its only block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem points_lt (t : Fin cfg1.N) : t.val < 25 := lt_of_lt_of_eq t.isLt N_1

variable (V : (c : Dev nD) → (b : Ref sig .tc) → Buf (Elt Ideal) ((c : Thread nD τ).loc b))

/-- Row `p` of block `t` of the row-tiled operand is row `2000·t + p` of the operand. -/
theorem operand_row (c : Dev nD) (t : Fin cfg1.N) (p : Fin 2000) (k : Fin 64) (r : Fin 50000) (hr : r.val = t.val * 2000 + p.val) :
    iblk1 V c 0 t (ix2 p k) = V c main_v44 (ix2 r k) := by
  show V c main_v44 (((cfg1.win 0).blk t).view.emb (ix2 p k)) = V c main_v44 (ix2 r k)
  obtain ⟨e0, e1, -⟩ := block_indices t
  have h : ((cfg1.win 0).blk t).view.emb (ix2 p k) = ix2 r k := by
    funext a; apply Fin.ext
    match a with
    | ⟨0, _⟩ => show win1_0.index t (0 : Fin 2) * 2000 + 1 * p.val = r.val; omega
    | ⟨1, _⟩ => show win1_0.index t (1 : Fin 2) * 64 + 1 * k.val = k.val; omega
  rw [h]

/-- The bias block is the whole bias row, at every point. -/
theorem bias_whole (c : Dev nD) (t : Fin cfg1.N) : iblk1 V c 1 t = V c main_v45 := by
  funext y
  show V c main_v45 (((cfg1.win 1).blk t).view.emb y) = V c main_v45 y
  obtain ⟨-, -, e2, e3, -⟩ := block_indices t
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 64 + 1 * (y 1).val = (y 1).val; omega
  rw [h]

/-- WHAT POINT `t` WRITES BACK is block `t` of the array whose every row is the shifted rectifier of the operand's row. -/
theorem written_back (c : Dev nD) (t : Fin cfg1.N) :
    (dat1 V c).flushed 2 t = ((cfg1.win 2).blk t).view.read (Elt Ideal)
      (mapRows (a := 50000) (K := 64) (J := 64) (shiftRelu (J := 64) (Scalar.ofBits (F := Ideal) .f32 0x00000000#32) (rowOf (a := 1) (b := 64) (V c main_v45) 0)) (V c main_v44)) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S1x64) zero_offsets]
  obtain ⟨-, -, -, -, e4, e5⟩ := block_indices t
  have ht := points_lt t
  funext j
  show k1_pay1 (F := Ideal) (iblk1 V c 0 t) (iblk1 V c 1 t) j
    = mapRows (a := 50000) (K := 64) (J := 64) (shiftRelu (J := 64) (Scalar.ofBits (F := Ideal) .f32 0x00000000#32) (rowOf (a := 1) (b := 64) (V c main_v45) 0)) (V c main_v44) (((cfg1.win 2).blk t).view.emb j)
  have hj0 : (j 0).val < 2000 := (j 0).isLt
  have hj1 : (j 1).val < 64 := (j 1).isLt
  refine (apply_eq_rowOf (a := 2000) (b := 64) (k1_pay1 (F := Ideal) (iblk1 V c 0 t) (iblk1 V c 1 t)) j).trans ?_
  refine (congrFun (body_row (iblk1 V c 0 t) (iblk1 V c 1 t) (j 0)) (j 1)).trans ?_
  refine (congrArg (fun b => shiftRelu (J := 64) (Scalar.ofBits (F := Ideal) .f32 0x00000000#32) (rowOf (a := 1) (b := 64) b 0) (rowOf (a := 2000) (b := 64) (iblk1 V c 0 t) (j 0)) (j 1)) (bias_whole V c t)).trans ?_
  refine mapRows_apply_of_row (a := 50000) (K := 64) (J := 64) (shiftRelu (J := 64) (Scalar.ofBits (F := Ideal) .f32 0x00000000#32) (rowOf (a := 1) (b := 64) (V c main_v45) 0)) (V c main_v44) _
    ⟨t.val * 2000 + (j 0).val, by omega⟩ (j 1) ?_ (rowOf (a := 2000) (b := 64) (iblk1 V c 0 t) (j 0)) (fun k => operand_row V c t (j 0) k _ rfl)
  funext a; apply Fin.ext
  match a with
  | ⟨0, _⟩ => show win1_2.index t (0 : Fin 2) * 2000 + 1 * (j 0).val = t.val * 2000 + (j 0).val; omega
  | ⟨1, _⟩ => show win1_2.index t (1 : Fin 2) * 64 + 1 * (j 1).val = (j 1).val; omega

/-- An index of the output array is in point `t`'s block iff each coordinate is in the block's range on its axis. -/
theorem mem_block (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v46).slice (win1_2.rect t)).set ↔ _
  rw [View.set_slice_whole, Rect.mem_set_unit]
  exact Iff.rfl

/-- The 25 blocks tile the output: row `r` is in block `r / 2000`. -/
theorem tiles (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hq : (i 0).val / 2000 < cfg1.N := lt_of_lt_of_eq (by omega : (i 0).val / 2000 < 25) N_1.symm
  obtain ⟨-, -, -, -, e4, e5⟩ := block_indices ⟨(i 0).val / 2000, hq⟩
  have e4' : win1_2.index ⟨(i 0).val / 2000, hq⟩ (0 : Fin 2) = (i 0).val / 2000 := e4
  refine ⟨⟨(i 0).val / 2000, hq⟩, flush1_2 _, ?_⟩
  rw [mem_block]
  intro a
  match a with
  | ⟨0, _⟩ => show win1_2.index ⟨(i 0).val / 2000, hq⟩ (0 : Fin 2) * 2000 ≤ (i 0).val ∧ (i 0).val < win1_2.index ⟨(i 0).val / 2000, hq⟩ (0 : Fin 2) * 2000 + 2000; omega
  | ⟨1, _⟩ => show win1_2.index ⟨(i 0).val / 2000, hq⟩ (1 : Fin 2) * 64 ≤ (i 1).val ∧ (i 1).val < win1_2.index ⟨(i 0).val / 2000, hq⟩ (1 : Fin 2) * 64 + 64; omega

/-- THE OUTPUT ARRAY after the 25 points: every row the shifted rectifier of the operand's row. -/
theorem result (c : Dev nD) : (dat1 V c).arrAt 2 cfg1.N
    = mapRows (a := 50000) (K := 64) (J := 64) (shiftRelu (J := 64) (Scalar.ofBits (F := Ideal) .f32 0x00000000#32) (rowOf (a := 1) (b := 64) (V c main_v45) 0)) (V c main_v44) :=
  (dat1 V c).arrAt_eq_of_cover 2 _ (fun t _ => written_back V c t) tiles

end Cert.KernelIdeal.RectifyFirst

end
-- ==== Proof.ProjectHidden.lean ====
/-
  The second projection, `h1 · W2`, evaluated in 25 blocks of 2000 rows.

  At each of the 25 grid points the body multiplies a block of 2000 rows of the first hidden layer by the whole of `W2` into a zero
  accumulator; a change of float format is the identity on extended reals. Row `p` of the block's result is the
  projection of row `p` of the block (`body_row`), row `p` of block `t` of the operand is row `2000·t + p` of the
  operand (`operand_row`), and the weight block is the whole weight array at every point (`weights_whole`). So what
  point `t` writes back is block `t` of ONE array — the array whose every row is the projection of the matching row
  of the operand (`written_back`) —, the 25 blocks tile the 50000 rows (`tiles`), and the output array ends
  holding that array (`result`), whatever the operand arrays hold when the evaluation starts.
-/
import proofs.«142583_j82119774699583_1_alg».proof.Proof.Gen.KernelIdeal.Frame
import proofs.«142583_j82119774699583_1_alg».proof.Proof.LibRowMaps

set_option maxRecDepth 16384

noncomputable section

namespace Cert.KernelIdeal.ProjectHidden

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-- The product's dimension numbers say "rows times columns". -/
theorem rowsTimesCols : RowsTimesCols dot_S2000x64_S64x64_S2000x64_1_0_0_1_n_n where
  rank := rfl
  size := rfl
  lhs0 := fun j q => by
    unfold DotDims.lhsIdx
    rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
    rfl
  lhs1 := fun j q => dot_S2000x64_S64x64_S2000x64_1_0_0_1_n_n.lhsIdx_val_of_single rfl j q
  rhs0 := fun j q => dot_S2000x64_S64x64_S2000x64_1_0_0_1_n_n.rhsIdx_val_of_single rfl j q
  rhs1 := fun j q => by
    unfold DotDims.rhsIdx
    rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
    rfl

/-- Row `p` of the body's result is the projection of row `p` of its first operand by its second. -/
theorem body_row (x : Vec Ideal S2000x64 .f32) (w : Vec Ideal S64x64 .f32) (p : Fin 2000) :
    rowOf (a := 2000) (b := 64) (k2_pay1 (F := Ideal) x w) p = project (K := 64) (J := 64) w (rowOf (a := 2000) (b := 64) x p) := by
  unfold k2_pay1
  show rowOf (a := 2000) (b := 64) (matmul (F := Ideal) dot_S2000x64_S64x64_S2000x64_1_0_0_1_n_n none (truncf (F := Ideal) .bf16 (shapeCast S2000x64 x shapeCasts_S2000x64_S2000x64) bitsLt_bf16_f32) (truncf (F := Ideal) .bf16 w bitsLt_bf16_f32) (constant (F := Ideal) S2000x64 .f32 0x00000000#32)) p = _
  rw [shapeCast_self]
  exact rowOf_matmul_zero rowsTimesCols none _ _ p

theorem zero_offsets : (![0, 0] : Fin 2 → Nat) = fun _ => 0 := funext fun a => by fin_cases a <;> rfl

/-- The windows' block indices at every grid point: the row-tiled operand and the output are at block `t` of the
    rows, the weights at their only block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem points_lt (t : Fin cfg2.N) : t.val < 25 := lt_of_lt_of_eq t.isLt N_2

variable (V : (c : Dev nD) → (b : Ref sig .tc) → Buf (Elt Ideal) ((c : Thread nD τ).loc b))

/-- Row `p` of block `t` of the row-tiled operand is row `2000·t + p` of the operand. -/
theorem operand_row (c : Dev nD) (t : Fin cfg2.N) (p : Fin 2000) (k : Fin 64) (r : Fin 50000) (hr : r.val = t.val * 2000 + p.val) :
    iblk2 V c 0 t (ix2 p k) = V c main_v46 (ix2 r k) := by
  show V c main_v46 (((cfg2.win 0).blk t).view.emb (ix2 p k)) = V c main_v46 (ix2 r k)
  obtain ⟨e0, e1, -⟩ := block_indices t
  have h : ((cfg2.win 0).blk t).view.emb (ix2 p k) = ix2 r k := by
    funext a; apply Fin.ext
    match a with
    | ⟨0, _⟩ => show win2_0.index t (0 : Fin 2) * 2000 + 1 * p.val = r.val; omega
    | ⟨1, _⟩ => show win2_0.index t (1 : Fin 2) * 64 + 1 * k.val = k.val; omega
  rw [h]

/-- The weight block is the whole weight array, at every point. -/
theorem weights_whole (c : Dev nD) (t : Fin cfg2.N) : iblk2 V c 1 t = V c main_arg4 := by
  funext y
  show V c main_arg4 (((cfg2.win 1).blk t).view.emb y) = V c main_arg4 y
  obtain ⟨-, -, e2, e3, -⟩ := block_indices t
  have h : ((cfg2.win 1).blk t).view.emb y = y := by
    funext a; apply Fin.ext
    match a with
    | ⟨0, _⟩ => show win2_1.index t (0 : Fin 2) * 64 + 1 * (y 0).val = (y 0).val; omega
    | ⟨1, _⟩ => show win2_1.index t (1 : Fin 2) * 64 + 1 * (y 1).val = (y 1).val; omega
  rw [h]

/-- WHAT POINT `t` WRITES BACK is block `t` of the array whose every row is the projection of the operand's row. -/
theorem written_back (c : Dev nD) (t : Fin cfg2.N) :
    (dat2 V c).flushed 2 t = ((cfg2.win 2).blk t).view.read (Elt Ideal)
      (mapRows (a := 50000) (K := 64) (J := 64) (project (K := 64) (J := 64) (V c main_arg4)) (V c main_v46)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S64x64) zero_offsets]
  obtain ⟨-, -, -, -, e4, e5⟩ := block_indices t
  have ht := points_lt t
  funext j
  show k2_pay1 (F := Ideal) (iblk2 V c 0 t) (iblk2 V c 1 t) j
    = mapRows (a := 50000) (K := 64) (J := 64) (project (K := 64) (J := 64) (V c main_arg4)) (V c main_v46) (((cfg2.win 2).blk t).view.emb j)
  have hj0 : (j 0).val < 2000 := (j 0).isLt
  have hj1 : (j 1).val < 64 := (j 1).isLt
  refine (apply_eq_rowOf (a := 2000) (b := 64) (k2_pay1 (F := Ideal) (iblk2 V c 0 t) (iblk2 V c 1 t)) j).trans ?_
  refine (congrFun (body_row (iblk2 V c 0 t) (iblk2 V c 1 t) (j 0)) (j 1)).trans ?_
  refine (congrArg (fun w => project (K := 64) (J := 64) w (rowOf (a := 2000) (b := 64) (iblk2 V c 0 t) (j 0)) (j 1)) (weights_whole V c t)).trans ?_
  refine mapRows_apply_of_row (a := 50000) (K := 64) (J := 64) (project (K := 64) (J := 64) (V c main_arg4)) (V c main_v46) _
    ⟨t.val * 2000 + (j 0).val, by omega⟩ (j 1) ?_ (rowOf (a := 2000) (b := 64) (iblk2 V c 0 t) (j 0)) (fun k => operand_row V c t (j 0) k _ rfl)
  funext a; apply Fin.ext
  match a with
  | ⟨0, _⟩ => show win2_2.index t (0 : Fin 2) * 2000 + 1 * (j 0).val = t.val * 2000 + (j 0).val; omega
  | ⟨1, _⟩ => show win2_2.index t (1 : Fin 2) * 64 + 1 * (j 1).val = (j 1).val; omega

/-- An index of the output array is in point `t`'s block iff each coordinate is in the block's range on its axis. -/
theorem mem_block (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- The 25 blocks tile the output: row `r` is in block `r / 2000`. -/
theorem tiles (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hq : (i 0).val / 2000 < cfg2.N := lt_of_lt_of_eq (by omega : (i 0).val / 2000 < 25) N_2.symm
  obtain ⟨-, -, -, -, e4, e5⟩ := block_indices ⟨(i 0).val / 2000, hq⟩
  have e4' : win2_2.index ⟨(i 0).val / 2000, hq⟩ (0 : Fin 2) = (i 0).val / 2000 := e4
  refine ⟨⟨(i 0).val / 2000, hq⟩, flush2_2 _, ?_⟩
  rw [mem_block]
  intro a
  match a with
  | ⟨0, _⟩ => show win2_2.index ⟨(i 0).val / 2000, hq⟩ (0 : Fin 2) * 2000 ≤ (i 0).val ∧ (i 0).val < win2_2.index ⟨(i 0).val / 2000, hq⟩ (0 : Fin 2) * 2000 + 2000; omega
  | ⟨1, _⟩ => show win2_2.index ⟨(i 0).val / 2000, hq⟩ (1 : Fin 2) * 64 ≤ (i 1).val ∧ (i 1).val < win2_2.index ⟨(i 0).val / 2000, hq⟩ (1 : Fin 2) * 64 + 64; omega

/-- THE OUTPUT ARRAY after the 25 points: every row the projection of the operand's row. -/
theorem result (c : Dev nD) : (dat2 V c).arrAt 2 cfg2.N
    = mapRows (a := 50000) (K := 64) (J := 64) (project (K := 64) (J := 64) (V c main_arg4)) (V c main_v46) :=
  (dat2 V c).arrAt_eq_of_cover 2 _ (fun t _ => written_back V c t) tiles

end Cert.KernelIdeal.ProjectHidden

end
-- ==== Proof.RectifySecond.lean ====
/-
  The second bias and rectifier, `max (agg2 + b2) 0`, evaluated in 25 blocks of 2000 rows.

  At each of the 25 grid points the body adds the one-row bias array to every row of a block of 2000 rows of the
  aggregated features and takes the maximum with zero. Row `p` of the block's result is the shifted rectifier of
  row `p` of the block (`body_row`), row `p` of block `t` of the operand is row `2000·t + p` of the operand
  (`operand_row`), and the bias block is the whole bias row at every point (`bias_whole`). So what point `t` writes
  back is block `t` of ONE array — the array whose every row is the shifted rectifier of the matching row of the
  operand (`written_back`) —, the 25 blocks tile the 50000 rows (`tiles`), and the output array ends holding that
  array (`result`), whatever the operand arrays hold when the evaluation starts (the second hidden layer).
-/
import proofs.«142583_j82119774699583_1_alg».proof.Proof.Gen.KernelIdeal.Frame
import proofs.«142583_j82119774699583_1_alg».proof.Proof.LibRowMaps

set_option maxRecDepth 16384

noncomputable section

namespace Cert.KernelIdeal.RectifySecond

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-- Row `p` of the body's result is the shifted rectifier of row `p` of its first operand, the shift the one row of
    its second. -/
theorem body_row (x : Vec Ideal S2000x64 .f32) (b : Vec Ideal S1x64 .f32) (p : Fin 2000) :
    rowOf (a := 2000) (b := 64) (k3_pay1 (F := Ideal) x b) p
      = shiftRelu (J := 64) (Scalar.ofBits (F := Ideal) .f32 0x00000000#32) (rowOf (a := 1) (b := 64) b 0) (rowOf (a := 2000) (b := 64) x p) := by
  unfold k3_pay1
  show rowOf (a := 2000) (b := 64) (maximumf (addf (shapeCast S2000x64 x shapeCasts_S2000x64_S2000x64) (broadcastTo S2000x64 (shapeCast S1x64 b shapeCasts_S1x64_S1x64) broadcasts_S1x64_S2000x64)) (broadcast S2000x64 (Scalar.ofBits (F := Ideal) .f32 0x00000000#32))) p = _
  rw [shapeCast_self, shapeCast_self, rowOf_maximumf_splat, rowOf_addf, rowOf_broadcastTo]
  rfl

theorem zero_offsets : (![0, 0] : Fin 2 → Nat) = fun _ => 0 := funext fun a => by fin_cases a <;> rfl

/-- The windows' block indices at every grid point: the row-tiled operand and the output are at block `t` of the
    rows, the bias row at its only block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem points_lt (t : Fin cfg3.N) : t.val < 25 := lt_of_lt_of_eq t.isLt N_3

variable (V : (c : Dev nD) → (b : Ref sig .tc) → Buf (Elt Ideal) ((c : Thread nD τ).loc b))

/-- Row `p` of block `t` of the row-tiled operand is row `2000·t + p` of the operand. -/
theorem operand_row (c : Dev nD) (t : Fin cfg3.N) (p : Fin 2000) (k : Fin 64) (r : Fin 50000) (hr : r.val = t.val * 2000 + p.val) :
    iblk3 V c 0 t (ix2 p k) = V c main_v87 (ix2 r k) := by
  show V c main_v87 (((cfg3.win 0).blk t).view.emb (ix2 p k)) = V c main_v87 (ix2 r k)
  obtain ⟨e0, e1, -⟩ := block_indices t
  have h : ((cfg3.win 0).blk t).view.emb (ix2 p k) = ix2 r k := by
    funext a; apply Fin.ext
    match a with
    | ⟨0, _⟩ => show win3_0.index t (0 : Fin 2) * 2000 + 1 * p.val = r.val; omega
    | ⟨1, _⟩ => show win3_0.index t (1 : Fin 2) * 64 + 1 * k.val = k.val; omega
  rw [h]

/-- The bias block is the whole bias row, at every point. -/
theorem bias_whole (c : Dev nD) (t : Fin cfg3.N) : iblk3 V c 1 t = V c main_v88 := by
  funext y
  show V c main_v88 (((cfg3.win 1).blk t).view.emb y) = V c main_v88 y
  obtain ⟨-, -, e2, e3, -⟩ := block_indices t
  have h : ((cfg3.win 1).blk t).view.emb y = y := by
    funext a; apply Fin.ext
    match a with
    | ⟨0, _⟩ => show win3_1.index t (0 : Fin 2) * 1 + 1 * (y 0).val = (y 0).val; omega
    | ⟨1, _⟩ => show win3_1.index t (1 : Fin 2) * 64 + 1 * (y 1).val = (y 1).val; omega
  rw [h]

/-- WHAT POINT `t` WRITES BACK is block `t` of the array whose every row is the shifted rectifier of the operand's row. -/
theorem written_back (c : Dev nD) (t : Fin cfg3.N) :
    (dat3 V c).flushed 2 t = ((cfg3.win 2).blk t).view.read (Elt Ideal)
      (mapRows (a := 50000) (K := 64) (J := 64) (shiftRelu (J := 64) (Scalar.ofBits (F := Ideal) .f32 0x00000000#32) (rowOf (a := 1) (b := 64) (V c main_v88) 0)) (V c main_v87)) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨-, -, -, -, e4, e5⟩ := block_indices t
  have ht := points_lt t
  funext j
  show k3_pay1 (F := Ideal) (iblk3 V c 0 t) (iblk3 V c 1 t) j
    = mapRows (a := 50000) (K := 64) (J := 64) (shiftRelu (J := 64) (Scalar.ofBits (F := Ideal) .f32 0x00000000#32) (rowOf (a := 1) (b := 64) (V c main_v88) 0)) (V c main_v87) (((cfg3.win 2).blk t).view.emb j)
  have hj0 : (j 0).val < 2000 := (j 0).isLt
  have hj1 : (j 1).val < 64 := (j 1).isLt
  refine (apply_eq_rowOf (a := 2000) (b := 64) (k3_pay1 (F := Ideal) (iblk3 V c 0 t) (iblk3 V c 1 t)) j).trans ?_
  refine (congrFun (body_row (iblk3 V c 0 t) (iblk3 V c 1 t) (j 0)) (j 1)).trans ?_
  refine (congrArg (fun b => shiftRelu (J := 64) (Scalar.ofBits (F := Ideal) .f32 0x00000000#32) (rowOf (a := 1) (b := 64) b 0) (rowOf (a := 2000) (b := 64) (iblk3 V c 0 t) (j 0)) (j 1)) (bias_whole V c t)).trans ?_
  refine mapRows_apply_of_row (a := 50000) (K := 64) (J := 64) (shiftRelu (J := 64) (Scalar.ofBits (F := Ideal) .f32 0x00000000#32) (rowOf (a := 1) (b := 64) (V c main_v88) 0)) (V c main_v87) _
    ⟨t.val * 2000 + (j 0).val, by omega⟩ (j 1) ?_ (rowOf (a := 2000) (b := 64) (iblk3 V c 0 t) (j 0)) (fun k => operand_row V c t (j 0) k _ rfl)
  funext a; apply Fin.ext
  match a with
  | ⟨0, _⟩ => show win3_2.index t (0 : Fin 2) * 2000 + 1 * (j 0).val = t.val * 2000 + (j 0).val; omega
  | ⟨1, _⟩ => show win3_2.index t (1 : Fin 2) * 64 + 1 * (j 1).val = (j 1).val; omega

/-- An index of the output array is in point `t`'s block iff each coordinate is in the block's range on its axis. -/
theorem mem_block (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v89).slice (win3_2.rect t)).set ↔ _
  rw [View.set_slice_whole, Rect.mem_set_unit]
  exact Iff.rfl

/-- The 25 blocks tile the output: row `r` is in block `r / 2000`. -/
theorem tiles (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hq : (i 0).val / 2000 < cfg3.N := lt_of_lt_of_eq (by omega : (i 0).val / 2000 < 25) N_3.symm
  obtain ⟨-, -, -, -, e4, e5⟩ := block_indices ⟨(i 0).val / 2000, hq⟩
  have e4' : win3_2.index ⟨(i 0).val / 2000, hq⟩ (0 : Fin 2) = (i 0).val / 2000 := e4
  refine ⟨⟨(i 0).val / 2000, hq⟩, flush3_2 _, ?_⟩
  rw [mem_block]
  intro a
  match a with
  | ⟨0, _⟩ => show win3_2.index ⟨(i 0).val / 2000, hq⟩ (0 : Fin 2) * 2000 ≤ (i 0).val ∧ (i 0).val < win3_2.index ⟨(i 0).val / 2000, hq⟩ (0 : Fin 2) * 2000 + 2000; omega
  | ⟨1, _⟩ => show win3_2.index ⟨(i 0).val / 2000, hq⟩ (1 : Fin 2) * 64 ≤ (i 1).val ∧ (i 1).val < win3_2.index ⟨(i 0).val / 2000, hq⟩ (1 : Fin 2) * 64 + 64; omega

/-- THE OUTPUT ARRAY after the 25 points: every row the shifted rectifier of the operand's row. -/
theorem result (c : Dev nD) : (dat3 V c).arrAt 2 cfg3.N
    = mapRows (a := 50000) (K := 64) (J := 64) (shiftRelu (J := 64) (Scalar.ofBits (F := Ideal) .f32 0x00000000#32) (rowOf (a := 1) (b := 64) (V c main_v88) 0)) (V c main_v87) :=
  (dat3 V c).arrAt_eq_of_cover 2 _ (fun t _ => written_back V c t) tiles

end Cert.KernelIdeal.RectifySecond

end
-- ==== Proof.ScoreHead.lean ====
/-
  The scoring head, `logistic (h2 · Wc + bc)`, evaluated in 25 blocks of 2000 rows.

  At each of the 25 grid points the body multiplies a block of 2000 rows of the second hidden layer by the whole
  one-column weight array into a zero accumulator, adds the one-entry bias to every row, and applies the logistic
  function; a change of float format is the identity on extended reals. Row `p` of the block's result is the score
  of row `p` of the block (`body_row`), row `p` of block `t` of the operand is row `2000·t + p` of the operand
  (`operand_row`), and the weight and bias blocks are the whole arrays at every point (`weights_whole`,
  `bias_whole`). So what point `t` writes back is block `t` of ONE array — the array whose every row is the score of
  the matching row of the operand (`written_back`) —, the 25 blocks tile the 50000 rows (`tiles`), and the output
  array ends holding that array (`result`), whatever the operand arrays hold when the evaluation starts.
-/
import proofs.«142583_j82119774699583_1_alg».proof.Proof.Gen.KernelIdeal.Frame
import proofs.«142583_j82119774699583_1_alg».proof.Proof.LibRowMaps

set_option maxRecDepth 16384

noncomputable section

namespace Cert.KernelIdeal.ScoreHead

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-- The product's dimension numbers say "rows times columns". -/
theorem rowsTimesCols : RowsTimesCols dot_S2000x64_S64x1_S2000x1_1_0_0_1_n_n where
  rank := rfl
  size := rfl
  lhs0 := fun j q => by
    unfold DotDims.lhsIdx
    rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
    rfl
  lhs1 := fun j q => dot_S2000x64_S64x1_S2000x1_1_0_0_1_n_n.lhsIdx_val_of_single rfl j q
  rhs0 := fun j q => dot_S2000x64_S64x1_S2000x1_1_0_0_1_n_n.rhsIdx_val_of_single rfl j q
  rhs1 := fun j q => by
    unfold DotDims.rhsIdx
    rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
    rfl

/-- Row `p` of the body's result is the score of row `p` of its first operand. -/
theorem body_row (x : Vec Ideal S2000x64 .f32) (w : Vec Ideal S64x1 .f32) (b : Vec Ideal S1x1 .f32) (p : Fin 2000) :
    rowOf (a := 2000) (b := 1) (k4_pay1 (F := Ideal) x w b) p = score (K := 64) (J := 1) w (rowOf (a := 1) (b := 1) b 0) (rowOf (a := 2000) (b := 64) x p) := by
  unfold k4_pay1
  show (fun q => Ideal.logistic (rowOf (a := 2000) (b := 1) (addf (F := Ideal) (matmul (F := Ideal) dot_S2000x64_S64x1_S2000x1_1_0_0_1_n_n none (truncf (F := Ideal) .bf16 (shapeCast S2000x64 x shapeCasts_S2000x64_S2000x64) bitsLt_bf16_f32) (truncf (F := Ideal) .bf16 w bitsLt_bf16_f32) (constant (F := Ideal) S2000x1 .f32 0x00000000#32)) (broadcastTo S2000x1 (shapeCast S1x1 b shapeCasts_S1x1_S1x1) broadcasts_S1x1_S2000x1)) p q)) = _
  rw [shapeCast_self, shapeCast_self, rowOf_dense_device rowsTimesCols]
  rfl

theorem zero_offsets : (![0, 0] : Fin 2 → Nat) = fun _ => 0 := funext fun a => by fin_cases a <;> rfl

/-- The windows' block indices at every grid point: the row-tiled operand and the output are at block `t` of the
    rows, the weights and the bias at their only block. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem points_lt (t : Fin cfg4.N) : t.val < 25 := lt_of_lt_of_eq t.isLt N_4

variable (V : (c : Dev nD) → (b : Ref sig .tc) → Buf (Elt Ideal) ((c : Thread nD τ).loc b))

/-- Row `p` of block `t` of the row-tiled operand is row `2000·t + p` of the operand. -/
theorem operand_row (c : Dev nD) (t : Fin cfg4.N) (p : Fin 2000) (k : Fin 64) (r : Fin 50000) (hr : r.val = t.val * 2000 + p.val) :
    iblk4 V c 0 t (ix2 p k) = V c main_v89 (ix2 r k) := by
  show V c main_v89 (((cfg4.win 0).blk t).view.emb (ix2 p k)) = V c main_v89 (ix2 r k)
  obtain ⟨e0, e1, -⟩ := block_indices t
  have h : ((cfg4.win 0).blk t).view.emb (ix2 p k) = ix2 r k := by
    funext a; apply Fin.ext
    match a with
    | ⟨0, _⟩ => show win4_0.index t (0 : Fin 2) * 2000 + 1 * p.val = r.val; omega
    | ⟨1, _⟩ => show win4_0.index t (1 : Fin 2) * 64 + 1 * k.val = k.val; omega
  rw [h]

/-- The weight block is the whole weight array, at every point. -/
theorem weights_whole (c : Dev nD) (t : Fin cfg4.N) : iblk4 V c 1 t = V c main_arg6 := by
  funext y
  show V c main_arg6 (((cfg4.win 1).blk t).view.emb y) = V c main_arg6 y
  obtain ⟨-, -, e2, e3, -⟩ := block_indices t
  have h : ((cfg4.win 1).blk t).view.emb y = y := by
    funext a; apply Fin.ext
    match a with
    | ⟨0, _⟩ => show win4_1.index t (0 : Fin 2) * 64 + 1 * (y 0).val = (y 0).val; omega
    | ⟨1, _⟩ => show win4_1.index t (1 : Fin 2) * 1 + 1 * (y 1).val = (y 1).val; omega
  rw [h]

/-- The bias block is the whole bias array, at every point. -/
theorem bias_whole (c : Dev nD) (t : Fin cfg4.N) : iblk4 V c 2 t = V c main_v90 := by
  funext y
  show V c main_v90 (((cfg4.win 2).blk t).view.emb y) = V c main_v90 y
  obtain ⟨-, -, -, -, e4, e5, -⟩ := block_indices t
  have h : ((cfg4.win 2).blk t).view.emb y = y := by
    funext a; apply Fin.ext
    match a with
    | ⟨0, _⟩ => show win4_2.index t (0 : Fin 2) * 1 + 1 * (y 0).val = (y 0).val; omega
    | ⟨1, _⟩ => show win4_2.index t (1 : Fin 2) * 1 + 1 * (y 1).val = (y 1).val; omega
  rw [h]

/-- WHAT POINT `t` WRITES BACK is block `t` of the array whose every row is the score of the operand's row. -/
theorem written_back (c : Dev nD) (t : Fin cfg4.N) :
    (dat4 V c).flushed 3 t = ((cfg4.win 3).blk t).view.read (Elt Ideal)
      (mapRows (a := 50000) (K := 64) (J := 1) (score (K := 64) (J := 1) (V c main_arg6) (rowOf (a := 1) (b := 1) (V c main_v90) 0)) (V c main_v89)) := by
  show (cfg4.win 3).cut (grid4.coords t) ((dat4 V c).after 3 t) = _
  rw [after4_3]
  unfold out4_3
  rw [View.canon_unit_zero zero_offsets]
  simp only [View.ld_unit_zero (S := S2000x64) zero_offsets, View.ld_unit_zero (S := S64x1) zero_offsets, View.ld_unit_zero (S := S1x1) zero_offsets]
  obtain ⟨-, -, -, -, -, -, e6, e7⟩ := block_indices t
  have ht := points_lt t
  funext j
  show k4_pay1 (F := Ideal) (iblk4 V c 0 t) (iblk4 V c 1 t) (iblk4 V c 2 t) j
    = mapRows (a := 50000) (K := 64) (J := 1) (score (K := 64) (J := 1) (V c main_arg6) (rowOf (a := 1) (b := 1) (V c main_v90) 0)) (V c main_v89) (((cfg4.win 3).blk t).view.emb j)
  have hj0 : (j 0).val < 2000 := (j 0).isLt
  have hj1 : (j 1).val < 1 := (j 1).isLt
  refine (apply_eq_rowOf (a := 2000) (b := 1) (k4_pay1 (F := Ideal) (iblk4 V c 0 t) (iblk4 V c 1 t) (iblk4 V c 2 t)) j).trans ?_
  refine (congrFun (body_row (iblk4 V c 0 t) (iblk4 V c 1 t) (iblk4 V c 2 t) (j 0)) (j 1)).trans ?_
  refine (congrArg (fun w => score (K := 64) (J := 1) w (rowOf (a := 1) (b := 1) (iblk4 V c 2 t) 0) (rowOf (a := 2000) (b := 64) (iblk4 V c 0 t) (j 0)) (j 1)) (weights_whole V c t)).trans ?_
  refine (congrArg (fun b => score (K := 64) (J := 1) (V c main_arg6) (rowOf (a := 1) (b := 1) b 0) (rowOf (a := 2000) (b := 64) (iblk4 V c 0 t) (j 0)) (j 1)) (bias_whole V c t)).trans ?_
  refine mapRows_apply_of_row (a := 50000) (K := 64) (J := 1) (score (K := 64) (J := 1) (V c main_arg6) (rowOf (a := 1) (b := 1) (V c main_v90) 0)) (V c main_v89) _
    ⟨t.val * 2000 + (j 0).val, by omega⟩ (j 1) ?_ (rowOf (a := 2000) (b := 64) (iblk4 V c 0 t) (j 0)) (fun k => operand_row V c t (j 0) k _ rfl)
  funext a; apply Fin.ext
  match a with
  | ⟨0, _⟩ => show win4_3.index t (0 : Fin 2) * 2000 + 1 * (j 0).val = t.val * 2000 + (j 0).val; omega
  | ⟨1, _⟩ => show win4_3.index t (1 : Fin 2) * 1 + 1 * (j 1).val = (j 1).val; omega

/-- An index of the output array is in point `t`'s block iff each coordinate is in the block's range on its axis. -/
theorem mem_block (t : Fin cfg4.N) (i : S50000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v91).slice (win4_3.rect t)).set ↔ _
  rw [View.set_slice_whole, Rect.mem_set_unit]
  exact Iff.rfl

/-- The 25 blocks tile the output: row `r` is in block `r / 2000`. -/
theorem tiles (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  have hq : (i 0).val / 2000 < cfg4.N := lt_of_lt_of_eq (by omega : (i 0).val / 2000 < 25) N_4.symm
  obtain ⟨-, -, -, -, -, -, e6, e7⟩ := block_indices ⟨(i 0).val / 2000, hq⟩
  have e6' : win4_3.index ⟨(i 0).val / 2000, hq⟩ (0 : Fin 2) = (i 0).val / 2000 := e6
  refine ⟨⟨(i 0).val / 2000, hq⟩, flush4_3 _, ?_⟩
  rw [mem_block]
  intro a
  match a with
  | ⟨0, _⟩ => show win4_3.index ⟨(i 0).val / 2000, hq⟩ (0 : Fin 2) * 2000 ≤ (i 0).val ∧ (i 0).val < win4_3.index ⟨(i 0).val / 2000, hq⟩ (0 : Fin 2) * 2000 + 2000; omega
  | ⟨1, _⟩ => show win4_3.index ⟨(i 0).val / 2000, hq⟩ (1 : Fin 2) * 1 ≤ (i 1).val ∧ (i 1).val < win4_3.index ⟨(i 0).val / 2000, hq⟩ (1 : Fin 2) * 1 + 1; omega

/-- THE OUTPUT ARRAY after the 25 points: every row the score of the operand's row. -/
theorem result (c : Dev nD) : (dat4 V c).arrAt 3 cfg4.N
    = mapRows (a := 50000) (K := 64) (J := 1) (score (K := 64) (J := 1) (V c main_arg6) (rowOf (a := 1) (b := 1) (V c main_v90) 0)) (V c main_v89) :=
  (dat4 V c).arrAt_eq_of_cover 3 _ (fun t _ => written_back V c t) tiles

end Cert.KernelIdeal.ScoreHead

end
-- ==== Proof.RefRun.lean ====
/-
  The reference program's run, and its result as a composition of named functions of the arguments.

  The reference is a straight line of array operations: a projection `x · W1`, a neighbourhood aggregation,
  a bias and a rectifier, a second projection, the same aggregation, bias and rectifier again, and a scoring head
  `1 / (1 + exp (−(h · Wc + bc)))`. The aggregation depends on the node features and on the edge list only:
  every edge `(s, d)` of the list extended by one self-loop per node carries `h[s] · dinv[s] · dinv[d]` to
  node `d`, where `dinv = deg^(−1/2)` (zero where the degree is not positive) and `deg` counts, per node, the
  extended edges that end there. It is stated here ONCE, as `aggregate h e`, a function of the feature array `h`
  and the edge array `e` — `aggregateOn h s d` at the array's two rows `s` and `d` —, from smaller named pieces
  (`withLoops`, `idColumn`, `degree`, `invSqrtDegree`, `edgeWeight`); both layers of the reference apply that one function. Nothing in this certificate opens it: the
  program it is compared with applies the same function to equal features.

  `run`: from any memory with zero counters every weakly fair execution of the reference terminates with its
  result at `classify` of the arguments' launch contents and with the arguments unchanged. The operations are
  listed in program order (`ops`; a called function's operations stand at its call), the program is their
  sequence by unfolding (`main_eq`), and each buffer's final contents are computed operation by operation.
-/
import proofs.«142583_j82119774699583_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 138 operations, in order (a called function's operations stand in its call's place). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v6 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v6 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v6 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v7 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v7 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v7 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    nullary main_c_7 (constantI S_ 32 0#32),
    unary main_c_7 main_v32 (broadcastInDim S850000 ![] bcast_S_S850000 : (⟨S_, .i32⟩ : BufTy).Contents (Elt F) → (⟨S850000, .i32⟩ : BufTy).Contents (Elt F)),
    binary main_v6 main_v32 main_v33 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v34 (broadcastInDim S850000 ![] bcast_S_S850000 : (⟨S_, .i32⟩ : BufTy).Contents (Elt F) → (⟨S850000, .i32⟩ : BufTy).Contents (Elt F)),
    binary main_v6 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v6 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v4 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v31 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x64 ![0, 1] bcast_S850000x1_S850000x64_0_1 : (⟨S850000x1, .f32⟩ : BufTy).Contents (Elt F) → (⟨S850000x64, .f32⟩ : BufTy).Contents (Elt F)),
    binary main_v38 main_v40 main_v41 (mulf : (⟨S850000x64, .f32⟩ : BufTy).Contents (Elt F) → (⟨S850000x64, .f32⟩ : BufTy).Contents (Elt F) → (⟨S850000x64, .f32⟩ : BufTy).Contents (Elt F)),
    nullary main_cst_9 (constant S_ .f32 0x00000000#32),
    unary main_cst_9 main_v42 (broadcastInDim S50000x64 ![] bcast_S_S50000x64 : (⟨S_, .f32⟩ : BufTy).Contents (Elt F) → (⟨S50000x64, .f32⟩ : BufTy).Contents (Elt F)),
    unary main_v7 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v47) (TRef.of (T := ⟨S50000x64, .f32⟩) main_call1_v0) (TRef.of (T := ⟨S50000x64, .f32⟩) main_v48) maximumf,
    binary main_v48 main_arg4 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_v50 (iotaInDim S50000 32 0),
    binary main_v1 main_v50 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v50 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_10 (constant S_ .f32 0x3F800000#32),
    unary main_cst_10 main_v53 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v54 (broadcastInDim S50000 ![] bcast_S_S50000 : (⟨S_, .f32⟩ : BufTy).Contents (Elt F) → (⟨S50000, .f32⟩ : BufTy).Contents (Elt F)),
    unary main_v52 main_v55 (broadcastInDim S850000x1 ![0] bcast_S850000_S850000x1_0 : (⟨S850000, .i32⟩ : BufTy).Contents (Elt F) → (⟨S850000x1, .i32⟩ : BufTy).Contents (Elt F)),
    ternary main_v54 main_v55 main_v53 main_v56 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v57 (broadcastInDim S50000 ![] bcast_S_S50000 : (⟨S_, .f32⟩ : BufTy).Contents (Elt F) → (⟨S50000, .f32⟩ : BufTy).Contents (Elt F)),
    binary main_v56 main_v57 main_v58 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0xBF000000#32),
    unary main_cst_13 main_v59 (broadcastInDim S50000 ![] bcast_S_S50000 : (⟨S_, .f32⟩ : BufTy).Contents (Elt F) → (⟨S50000, .f32⟩ : BufTy).Contents (Elt F)),
    binary main_v56 main_v59 main_v60 (Host.powf : (⟨S50000, .f32⟩ : BufTy).Contents (Elt F) → (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v58) (TRef.of (T := ⟨S50000, .f32⟩) main_v60) (TRef.of (T := ⟨S50000, .f32⟩) main_call2_v1) (TRef.of (T := ⟨S50000, .f32⟩) main_v61) select,
    nullary main_c_15 (constantI S_ 32 0#32),
    unary main_c_15 main_v62 (broadcastInDim S850000 ![] bcast_S_S850000 : (⟨S_, .i32⟩ : BufTy).Contents (Elt F) → (⟨S850000, .i32⟩ : BufTy).Contents (Elt F)),
    binary main_v51 main_v62 main_v63 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v64 (broadcastInDim S850000 ![] bcast_S_S850000 : (⟨S_, .i32⟩ : BufTy).Contents (Elt F) → (⟨S850000, .i32⟩ : BufTy).Contents (Elt F)),
    binary main_v51 main_v64 main_v65 (addi : (⟨S850000, .i32⟩ : BufTy).Contents (Elt F) → (⟨S850000, .i32⟩ : BufTy).Contents (Elt F) → (⟨S850000, .i32⟩ : BufTy).Contents (Elt F)),
    ternary main_v63 main_v65 main_v51 main_v66 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v66 main_v67 (broadcastInDim S850000x1 ![0] bcast_S850000_S850000x1_0 : (⟨S850000, .i32⟩ : BufTy).Contents (Elt F) → (⟨S850000x1, .i32⟩ : BufTy).Contents (Elt F)),
    binary main_v61 main_v67 main_v68 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v69 (broadcastInDim S850000 ![] bcast_S_S850000 : (⟨S_, .i32⟩ : BufTy).Contents (Elt F) → (⟨S850000, .i32⟩ : BufTy).Contents (Elt F)),
    binary main_v52 main_v69 main_v70 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v71 (broadcastInDim S850000 ![] bcast_S_S850000 : (⟨S_, .i32⟩ : BufTy).Contents (Elt F) → (⟨S850000, .i32⟩ : BufTy).Contents (Elt F)),
    binary main_v52 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v52 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v61 main_v74 main_v75 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v68 main_v75 main_v76 (mulf : (⟨S850000, .f32⟩ : BufTy).Contents (Elt F) → (⟨S850000, .f32⟩ : BufTy).Contents (Elt F) → (⟨S850000, .f32⟩ : BufTy).Contents (Elt F)),
    nullary main_c_19 (constantI S_ 32 0#32),
    unary main_c_19 main_v77 (broadcastInDim S850000 ![] bcast_S_S850000 : (⟨S_, .i32⟩ : BufTy).Contents (Elt F) → (⟨S850000, .i32⟩ : BufTy).Contents (Elt F)),
    binary main_v51 main_v77 main_v78 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v79 (broadcastInDim S850000 ![] bcast_S_S850000 : (⟨S_, .i32⟩ : BufTy).Contents (Elt F) → (⟨S850000, .i32⟩ : BufTy).Contents (Elt F)),
    binary main_v51 main_v79 main_v80 (addi : (⟨S850000, .i32⟩ : BufTy).Contents (Elt F) → (⟨S850000, .i32⟩ : BufTy).Contents (Elt F) → (⟨S850000, .i32⟩ : BufTy).Contents (Elt F)),
    ternary main_v78 main_v80 main_v51 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v81 main_v82 (broadcastInDim S850000x1 ![0] bcast_S850000_S850000x1_0 : (⟨S850000, .i32⟩ : BufTy).Contents (Elt F) → (⟨S850000x1, .i32⟩ : BufTy).Contents (Elt F)),
    binary main_v49 main_v82 main_v83 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v76 main_v84 (broadcastInDim S850000x1 ![0] bcast_S850000_S850000x1_0 : (⟨S850000, .f32⟩ : BufTy).Contents (Elt F) → (⟨S850000x1, .f32⟩ : BufTy).Contents (Elt F)),
    unary main_v84 main_v85 (broadcastInDim S850000x64 ![0, 1] bcast_S850000x1_S850000x64_0_1 : (⟨S850000x1, .f32⟩ : BufTy).Contents (Elt F) → (⟨S850000x64, .f32⟩ : BufTy).Contents (Elt F)),
    binary main_v83 main_v85 main_v86 (mulf : (⟨S850000x64, .f32⟩ : BufTy).Contents (Elt F) → (⟨S850000x64, .f32⟩ : BufTy).Contents (Elt F) → (⟨S850000x64, .f32⟩ : BufTy).Contents (Elt F)),
    nullary main_cst_21 (constant S_ .f32 0x00000000#32),
    unary main_cst_21 main_v87 (broadcastInDim S50000x64 ![] bcast_S_S50000x64 : (⟨S_, .f32⟩ : BufTy).Contents (Elt F) → (⟨S50000x64, .f32⟩ : BufTy).Contents (Elt F)),
    unary main_v52 main_v88 (broadcastInDim S850000x1 ![0] bcast_S850000_S850000x1_0 : (⟨S850000, .i32⟩ : BufTy).Contents (Elt F) → (⟨S850000x1, .i32⟩ : BufTy).Contents (Elt F)),
    ternary main_v87 main_v88 main_v86 main_v89 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v90 (broadcastInDim S1x64 ![1] bcast_S64_S1x64_1 : (⟨S64, .f32⟩ : BufTy).Contents (Elt F) → (⟨S1x64, .f32⟩ : BufTy).Contents (Elt F)),
    unary main_v90 main_v91 (broadcastInDim S50000x64 ![0, 1] bcast_S1x64_S50000x64_0_1 : (⟨S1x64, .f32⟩ : BufTy).Contents (Elt F) → (⟨S50000x64, .f32⟩ : BufTy).Contents (Elt F)),
    binary main_v89 main_v91 main_v92 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v92) (TRef.of (T := ⟨S50000x64, .f32⟩) main_call3_v0) (TRef.of (T := ⟨S50000x64, .f32⟩) main_v93) maximumf,
    binary main_v93 main_arg6 main_v94 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg7 main_v95 (broadcastInDim S1x1 ![1] bcast_S1_S1x1_1 : (⟨S1, .f32⟩ : BufTy).Contents (Elt F) → (⟨S1x1, .f32⟩ : BufTy).Contents (Elt F)),
    unary main_v95 main_v96 (broadcastInDim S50000x1 ![0, 1] bcast_S1x1_S50000x1_0_1 : (⟨S1x1, .f32⟩ : BufTy).Contents (Elt F) → (⟨S50000x1, .f32⟩ : BufTy).Contents (Elt F)),
    binary main_v94 main_v96 main_v97 (addf : (⟨S50000x1, .f32⟩ : BufTy).Contents (Elt F) → (⟨S50000x1, .f32⟩ : BufTy).Contents (Elt F) → (⟨S50000x1, .f32⟩ : BufTy).Contents (Elt F)),
    unary main_v97 main_v98 (Host.negf : (⟨S50000x1, .f32⟩ : BufTy).Contents (Elt F) → (⟨S50000x1, .f32⟩ : BufTy).Contents (Elt F)),
    unary main_v98 main_v99 (Host.exp : (⟨S50000x1, .f32⟩ : BufTy).Contents (Elt F) → (⟨S50000x1, .f32⟩ : BufTy).Contents (Elt F)),
    nullary main_cst_22 (constant S_ .f32 0x3F800000#32),
    unary main_cst_22 main_v100 (broadcastInDim S50000x1 ![] bcast_S_S50000x1 : (⟨S_, .f32⟩ : BufTy).Contents (Elt F) → (⟨S50000x1, .f32⟩ : BufTy).Contents (Elt F)),
    binary main_v100 main_v99 main_v101 (addf : (⟨S50000x1, .f32⟩ : BufTy).Contents (Elt F) → (⟨S50000x1, .f32⟩ : BufTy).Contents (Elt F) → (⟨S50000x1, .f32⟩ : BufTy).Contents (Elt F)),
    nullary main_cst_23 (constant S_ .f32 0x3F800000#32),
    unary main_cst_23 main_v102 (broadcastInDim S50000x1 ![] bcast_S_S50000x1 : (⟨S_, .f32⟩ : BufTy).Contents (Elt F) → (⟨S50000x1, .f32⟩ : BufTy).Contents (Elt F)),
    binary main_v102 main_v101 main_v103 (Host.divf : (⟨S50000x1, .f32⟩ : BufTy).Contents (Elt F) → (⟨S50000x1, .f32⟩ : BufTy).Contents (Elt F) → (⟨S50000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-! ## The result, as named functions of the arguments -/

/-- The first row of the edge array: every edge's source node. -/
def edgeSources (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The second row of the edge array: every edge's target node. -/
def edgeTargets (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of edge ends, then every node once (its self-loop's end). -/
def withLoops (v : (⟨S800000, .i32⟩ : BufTy).Contents (Elt F)) : (⟨S850000, .i32⟩ : BufTy).Contents (Elt F) :=
  concatenate S850000 0 [⟨S800000, v⟩, ⟨S50000, (iotaInDim S50000 32 0)⟩] concatenates_S800000_S50000_S850000_d0

/-- Node ids as the one-column array a row lookup takes, a negative id counted from the end. -/
def idColumn (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The degree of every node: the number of extended edges that end there. -/
def degree (d : (⟨S800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (withLoops (F := F) d)) (broadcastInDim S850000 ![] bcast_S_S850000 (constant S_ .f32 0x3F800000#32))

/-- `deg^(−1/2)` where the degree is positive, zero elsewhere. -/
def invSqrtDegree (d : (⟨S800000, .i32⟩ : BufTy).Contents (Elt F)) : (⟨S50000, .f32⟩ : BufTy).Contents (Elt F) :=
  select (cmpf .ogt (degree (F := F) d) (broadcastInDim S50000 ![] bcast_S_S50000 (constant (F := F) S_ .f32 0x00000000#32))) (Host.powf (degree (F := F) d) (broadcastInDim S50000 ![] bcast_S_S50000 (constant S_ .f32 0xBF000000#32))) (broadcastInDim S50000 ![] bcast_S_S50000 (id (constant S_ .f32 0x00000000#32)))

/-- The weight of every extended edge: `dinv[source] · dinv[target]`. -/
def edgeWeight (s d : (⟨S800000, .i32⟩ : BufTy).Contents (Elt F)) : (⟨S850000, .f32⟩ : BufTy).Contents (Elt F) :=
  mulf (Host.gather gather_S50000_S850000x1_S850000_n_0_n_n_0_1_1 (invSqrtDegree (F := F) d) (idColumn (F := F) (withLoops (F := F) s))) (Host.gather gather_S50000_S850000x1_S850000_n_0_n_n_0_1_1 (invSqrtDegree (F := F) d) (idColumn (F := F) (withLoops (F := F) d)))

/-- THE AGGREGATION over given source and target vectors: every extended edge carries its source's feature row,
    scaled by the edge's weight, to its target; each node sums what arrives. -/
def aggregateOn (h : (⟨S50000x64, .f32⟩ : BufTy).Contents (Elt F)) (s d : (⟨S800000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (withLoops (F := F) d)) (mulf (Host.gather gather_S50000x64_S850000x1_S850000x64_1_0_n_n_0_1_164 h (idColumn (F := F) (withLoops (F := F) s))) (broadcastInDim S850000x64 ![0, 1] bcast_S850000x1_S850000x64_0_1 (broadcastInDim S850000x1 ![0] bcast_S850000_S850000x1_0 (edgeWeight (F := F) s d))))

/-- Equal features and equal edge ends aggregate equally. -/
theorem aggregateOn_congr {h h' : (⟨S50000x64, .f32⟩ : BufTy).Contents (Elt F)} {s s' d d' : (⟨S800000, .i32⟩ : BufTy).Contents (Elt F)} (hh : h = h') (hs : s = s') (hd : d = d') :
    aggregateOn (F := F) h s d = aggregateOn (F := F) h' s' d' := by
  subst hh; subst hs; subst hd; rfl

/-- THE AGGREGATION over an edge array: over its two rows. -/
def aggregate (h : (⟨S50000x64, .f32⟩ : BufTy).Contents (Elt F)) (e : (⟨S2x800000, .i32⟩ : BufTy).Contents (Elt F)) : (⟨S50000x64, .f32⟩ : BufTy).Contents (Elt F) :=
  aggregateOn (F := F) h (edgeSources (F := F) e) (edgeTargets (F := F) e)

/-- A hidden layer after its aggregation: the bias row added to every node's row, then the rectifier. -/
def rectify (agg : (⟨S50000x64, .f32⟩ : BufTy).Contents (Elt F)) (b : (⟨S64, .f32⟩ : BufTy).Contents (Elt F)) : (⟨S50000x64, .f32⟩ : BufTy).Contents (Elt F) :=
  maximumf (addf agg (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The first hidden layer: project by `W1`, aggregate, add `b1`, rectify. -/
def hidden1 (x : (⟨S50000x256, .f32⟩ : BufTy).Contents (Elt F)) (e : (⟨S2x800000, .i32⟩ : BufTy).Contents (Elt F)) (w1 : (⟨S256x64, .f32⟩ : BufTy).Contents (Elt F)) (b1 : (⟨S64, .f32⟩ : BufTy).Contents (Elt F)) : (⟨S50000x64, .f32⟩ : BufTy).Contents (Elt F) :=
  rectify (F := F) (aggregate (F := F) (Host.dotGeneral dot_S50000x256_S256x64_S50000x64_1_0_0_1_n_n none x w1) e) b1

/-- The second hidden layer: project by `W2`, aggregate, add `b2`, rectify. -/
def hidden2 (h : (⟨S50000x64, .f32⟩ : BufTy).Contents (Elt F)) (e : (⟨S2x800000, .i32⟩ : BufTy).Contents (Elt F)) (w2 : (⟨S64x64, .f32⟩ : BufTy).Contents (Elt F)) (b2 : (⟨S64, .f32⟩ : BufTy).Contents (Elt F)) : (⟨S50000x64, .f32⟩ : BufTy).Contents (Elt F) :=
  rectify (F := F) (aggregate (F := F) (Host.dotGeneral dot_S50000x64_S64x64_S50000x64_1_0_0_1_n_n none h w2) e) b2

/-- The scoring head, as the reference spells it: `1 / (1 + exp (−(h · Wc + bc)))`. -/
def head (h : (⟨S50000x64, .f32⟩ : BufTy).Contents (Elt F)) (wc : (⟨S64x1, .f32⟩ : BufTy).Contents (Elt F)) (bc : (⟨S1, .f32⟩ : BufTy).Contents (Elt F)) : (⟨S50000x1, .f32⟩ : BufTy).Contents (Elt F) :=
  Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x64_S64x1_S50000x1_1_0_0_1_n_n none h wc) (broadcastInDim S50000x1 ![0, 1] bcast_S1x1_S50000x1_0_1 (broadcastInDim S1x1 ![1] bcast_S1_S1x1_1 bc))))))

/-- THE REFERENCE'S RESULT as a function of its eight arguments. -/
def classify (x : (⟨S50000x256, .f32⟩ : BufTy).Contents (Elt F)) (e : (⟨S2x800000, .i32⟩ : BufTy).Contents (Elt F)) (w1 : (⟨S256x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) (wc : (⟨S64x1, .f32⟩ : BufTy).Contents (Elt F)) (bc : (⟨S1, .f32⟩ : BufTy).Contents (Elt F)) : (⟨S50000x1, .f32⟩ : BufTy).Contents (Elt F) :=
  head (F := F) (hidden2 (F := F) (hidden1 (F := F) x e w1 b1) e w2 b2) wc bc

set_option maxRecDepth 8192 in
set_option maxHeartbeats 55200000 in
/-- On every device, for any float values, from any memory with zero counters: every weakly fair execution of the
    reference terminates with its result at `classify` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = classify (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v103).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.KernelChain.lean ====
/-
  What the idealized program's result buffer holds after the run.

  The run's buffer contents are a fold over the program's thirteen segments (a stretch of array operations rewrites
  the buffers its operations write; a row-tiled evaluation leaves its output array at what its write-backs leave).
  FIRST, what each stretch does to ANY buffer contents `V`, for any float values: the four operations after the launch split the edge
  array into its two rows; each of the two long stretches writes, into its result buffer, the neighbourhood
  aggregation of the feature array it finds over the edge rows it finds — the same function `aggregateOn` that the
  reference applies (RefRun.lean), never opened here — and views a bias vector as a row; the one operation before the
  head views the head's bias as a `[1, 1]` array; and each leaves the buffers it does not write alone.
  THEN the fold, read at the buffers the evaluations use: a weight array or an edge row reached several segments after
  the launch still holds its launch contents (the `atK_…` facts), and the result buffer holds, stage by stage,
    `x · W1` row by row (ProjectIn); its aggregation; the first hidden layer (RectifyFirst); its projection by `W2`
    (ProjectHidden); the aggregation of that; the second hidden layer (RectifySecond); every node's score (ScoreHead).
  The last theorem, `result`, is the composition.
-/
import proofs.«142583_j82119774699583_1_alg».proof.Proof.Gen.KernelIdeal.Frame
import proofs.«142583_j82119774699583_1_alg».proof.Proof.ProjectIn
import proofs.«142583_j82119774699583_1_alg».proof.Proof.RectifyFirst
import proofs.«142583_j82119774699583_1_alg».proof.Proof.ProjectHidden
import proofs.«142583_j82119774699583_1_alg».proof.Proof.RectifySecond
import proofs.«142583_j82119774699583_1_alg».proof.Proof.ScoreHead
import proofs.«142583_j82119774699583_1_alg».proof.Proof.RefRun
import Idealize.ShloMosaic.Lib.StableHlo.Run

set_option maxRecDepth 16384
set_option maxHeartbeats 16000000

noncomputable section

namespace Cert.KernelIdeal.Chain

open Cert.KernelIdeal Cert.KernelIdeal.Gen Idealize.ShloMosaic Idealize.ShloMosaic.TcCoe Idealize.ShloMosaic.ValueIdx Idealize.SL.Sem
open Cert.RowLayers Cert.Layers
open Idealize.ShloMosaic.Pipeline (Dat)

/-! ## What each stretch of array operations does to any buffer contents -/

section Stretches
variable {F : FTy → Type} [FloatOps F] (V : Valuation τ sig (Elt F))

theorem launch_keeps_arg0 : StableHlo.after hostOps0 V (Proc.devRef .tc main_arg0) = V (Proc.devRef .tc main_arg0) := by
  dsimp only [hostOps0]
  after_results
  all_goals rfl
theorem launch_keeps_arg2 : StableHlo.after hostOps0 V (Proc.devRef .tc main_arg2) = V (Proc.devRef .tc main_arg2) := by
  dsimp only [hostOps0]
  after_results
  all_goals rfl
theorem launch_keeps_arg3 : StableHlo.after hostOps0 V (Proc.devRef .tc main_arg3) = V (Proc.devRef .tc main_arg3) := by
  dsimp only [hostOps0]
  after_results
  all_goals rfl
theorem launch_keeps_arg4 : StableHlo.after hostOps0 V (Proc.devRef .tc main_arg4) = V (Proc.devRef .tc main_arg4) := by
  dsimp only [hostOps0]
  after_results
  all_goals rfl
theorem launch_keeps_arg5 : StableHlo.after hostOps0 V (Proc.devRef .tc main_arg5) = V (Proc.devRef .tc main_arg5) := by
  dsimp only [hostOps0]
  after_results
  all_goals rfl
theorem launch_keeps_arg6 : StableHlo.after hostOps0 V (Proc.devRef .tc main_arg6) = V (Proc.devRef .tc main_arg6) := by
  dsimp only [hostOps0]
  after_results
  all_goals rfl
theorem launch_keeps_arg7 : StableHlo.after hostOps0 V (Proc.devRef .tc main_arg7) = V (Proc.devRef .tc main_arg7) := by
  dsimp only [hostOps0]
  after_results
  all_goals rfl
theorem launch_sources : StableHlo.after hostOps0 V (Proc.devRef .tc main_v1) = Cert.ReferenceIdeal.RefValue.edgeSources (F := F) (V (Proc.devRef .tc main_arg1)) := by
  dsimp only [hostOps0]
  after_results
  all_goals rfl
theorem launch_targets : StableHlo.after hostOps0 V (Proc.devRef .tc main_v3) = Cert.ReferenceIdeal.RefValue.edgeTargets (F := F) (V (Proc.devRef .tc main_arg1)) := by
  dsimp only [hostOps0]
  after_results
  all_goals rfl

/-- The first long stretch leaves, in its result buffer, the aggregation of the features it finds over the edge ends
    it finds … -/
theorem stretch1_aggregates : StableHlo.after hostOps1_2 (StableHlo.after hostOps1_1 (StableHlo.after hostOps1 V)) (Proc.devRef .tc main_v44) = Cert.ReferenceIdeal.RefValue.aggregateOn (F := F) (V (Proc.devRef .tc main_v4)) (V (Proc.devRef .tc main_v1)) (V (Proc.devRef .tc main_v3)) := by
  dsimp only [hostOps1_2, hostOps1_1, hostOps1]
  after_results_simp <;> rfl
/-- … and the first bias vector viewed as a row. -/
theorem stretch1_bias : StableHlo.after hostOps1_2 (StableHlo.after hostOps1_1 (StableHlo.after hostOps1 V)) (Proc.devRef .tc main_v45) = shapeCast S1x64 (V (Proc.devRef .tc main_arg3)) shapeCasts_S64_S1x64 := by
  dsimp only [hostOps1_2, hostOps1_1, hostOps1]
  after_results_simp <;> rfl
theorem stretch1_keeps_arg4 : StableHlo.after hostOps1_2 (StableHlo.after hostOps1_1 (StableHlo.after hostOps1 V)) (Proc.devRef .tc main_arg4) = V (Proc.devRef .tc main_arg4) := by
  dsimp only [hostOps1_2, hostOps1_1, hostOps1]
  after_results_simp
theorem stretch1_keeps_arg5 : StableHlo.after hostOps1_2 (StableHlo.after hostOps1_1 (StableHlo.after hostOps1 V)) (Proc.devRef .tc main_arg5) = V (Proc.devRef .tc main_arg5) := by
  dsimp only [hostOps1_2, hostOps1_1, hostOps1]
  after_results_simp
theorem stretch1_keeps_arg6 : StableHlo.after hostOps1_2 (StableHlo.after hostOps1_1 (StableHlo.after hostOps1 V)) (Proc.devRef .tc main_arg6) = V (Proc.devRef .tc main_arg6) := by
  dsimp only [hostOps1_2, hostOps1_1, hostOps1]
  after_results_simp
theorem stretch1_keeps_arg7 : StableHlo.after hostOps1_2 (StableHlo.after hostOps1_1 (StableHlo.after hostOps1 V)) (Proc.devRef .tc main_arg7) = V (Proc.devRef .tc main_arg7) := by
  dsimp only [hostOps1_2, hostOps1_1, hostOps1]
  after_results_simp
theorem stretch1_keeps_v1 : StableHlo.after hostOps1_2 (StableHlo.after hostOps1_1 (StableHlo.after hostOps1 V)) (Proc.devRef .tc main_v1) = V (Proc.devRef .tc main_v1) := by
  dsimp only [hostOps1_2, hostOps1_1, hostOps1]
  after_results_simp
theorem stretch1_keeps_v3 : StableHlo.after hostOps1_2 (StableHlo.after hostOps1_1 (StableHlo.after hostOps1 V)) (Proc.devRef .tc main_v3) = V (Proc.devRef .tc main_v3) := by
  dsimp only [hostOps1_2, hostOps1_1, hostOps1]
  after_results_simp

/-- The second long stretch does the same one layer later. -/
theorem stretch2_aggregates : StableHlo.after hostOps3_2 (StableHlo.after hostOps3_1 (StableHlo.after hostOps3 V)) (Proc.devRef .tc main_v87) = Cert.ReferenceIdeal.RefValue.aggregateOn (F := F) (V (Proc.devRef .tc main_v47)) (V (Proc.devRef .tc main_v1)) (V (Proc.devRef .tc main_v3)) := by
  dsimp only [hostOps3_2, hostOps3_1, hostOps3]
  after_results_simp <;> rfl
theorem stretch2_bias : StableHlo.after hostOps3_2 (StableHlo.after hostOps3_1 (StableHlo.after hostOps3 V)) (Proc.devRef .tc main_v88) = shapeCast S1x64 (V (Proc.devRef .tc main_arg5)) shapeCasts_S64_S1x64 := by
  dsimp only [hostOps3_2, hostOps3_1, hostOps3]
  after_results_simp <;> rfl
theorem stretch2_keeps_arg6 : StableHlo.after hostOps3_2 (StableHlo.after hostOps3_1 (StableHlo.after hostOps3 V)) (Proc.devRef .tc main_arg6) = V (Proc.devRef .tc main_arg6) := by
  dsimp only [hostOps3_2, hostOps3_1, hostOps3]
  after_results_simp
theorem stretch2_keeps_arg7 : StableHlo.after hostOps3_2 (StableHlo.after hostOps3_1 (StableHlo.after hostOps3 V)) (Proc.devRef .tc main_arg7) = V (Proc.devRef .tc main_arg7) := by
  dsimp only [hostOps3_2, hostOps3_1, hostOps3]
  after_results_simp

/-- The last operation before the head views the head's bias as a `[1, 1]` array and writes nothing else. -/
theorem tail_bias : StableHlo.after hostOps4 V (Proc.devRef .tc main_v90) = shapeCast S1x1 (V (Proc.devRef .tc main_arg7)) shapeCasts_S1_S1x1 := by
  dsimp only [hostOps4]
  after_results
  all_goals rfl
theorem tail_keeps_v89 : StableHlo.after hostOps4 V (Proc.devRef .tc main_v89) = V (Proc.devRef .tc main_v89) := by
  dsimp only [hostOps4]
  after_results
  all_goals rfl
theorem tail_keeps_arg6 : StableHlo.after hostOps4 V (Proc.devRef .tc main_arg6) = V (Proc.devRef .tc main_arg6) := by
  dsimp only [hostOps4]
  after_results
  all_goals rfl

end Stretches

variable (m : (ℓ : Loc nD τ sig) → Buf (Elt Ideal) ℓ) (ρ : Dev nD → PrngReg) (c : Dev nD)

/-! ## Buffers that keep their launch contents, segment by segment -/

theorem entry_x : V1 m ρ c main_arg0 = (m ((c : Thread nD τ).loc main_arg0)) := launch_keeps_arg0 (W0 m ρ c)
theorem entry_w1 : V1 m ρ c main_arg2 = (m ((c : Thread nD τ).loc main_arg2)) := launch_keeps_arg2 (W0 m ρ c)
theorem at1_arg3 : W1 m ρ c (Proc.devRef .tc main_arg3) = (m ((c : Thread nD τ).loc main_arg3)) := (launch_keeps_arg3 (W0 m ρ c))
theorem at2_arg3 : W2 m ρ c (Proc.devRef .tc main_arg3) = (m ((c : Thread nD τ).loc main_arg3)) :=
  (W2_of_ne m ρ c main_arg3 (by decide)).trans (at1_arg3 m ρ c)
theorem at1_arg4 : W1 m ρ c (Proc.devRef .tc main_arg4) = (m ((c : Thread nD τ).loc main_arg4)) := (launch_keeps_arg4 (W0 m ρ c))
theorem at2_arg4 : W2 m ρ c (Proc.devRef .tc main_arg4) = (m ((c : Thread nD τ).loc main_arg4)) :=
  (W2_of_ne m ρ c main_arg4 (by decide)).trans (at1_arg4 m ρ c)
theorem at1_arg5 : W1 m ρ c (Proc.devRef .tc main_arg5) = (m ((c : Thread nD τ).loc main_arg5)) := (launch_keeps_arg5 (W0 m ρ c))
theorem at2_arg5 : W2 m ρ c (Proc.devRef .tc main_arg5) = (m ((c : Thread nD τ).loc main_arg5)) :=
  (W2_of_ne m ρ c main_arg5 (by decide)).trans (at1_arg5 m ρ c)
theorem at1_arg6 : W1 m ρ c (Proc.devRef .tc main_arg6) = (m ((c : Thread nD τ).loc main_arg6)) := (launch_keeps_arg6 (W0 m ρ c))
theorem at2_arg6 : W2 m ρ c (Proc.devRef .tc main_arg6) = (m ((c : Thread nD τ).loc main_arg6)) :=
  (W2_of_ne m ρ c main_arg6 (by decide)).trans (at1_arg6 m ρ c)
theorem at1_arg7 : W1 m ρ c (Proc.devRef .tc main_arg7) = (m ((c : Thread nD τ).loc main_arg7)) := (launch_keeps_arg7 (W0 m ρ c))
theorem at2_arg7 : W2 m ρ c (Proc.devRef .tc main_arg7) = (m ((c : Thread nD τ).loc main_arg7)) :=
  (W2_of_ne m ρ c main_arg7 (by decide)).trans (at1_arg7 m ρ c)
theorem at1_v1 : W1 m ρ c (Proc.devRef .tc main_v1) = (Cert.ReferenceIdeal.RefValue.edgeSources (F := Ideal) (m ((c : Thread nD τ).loc main_arg1))) := (launch_sources (W0 m ρ c))
theorem at2_v1 : W2 m ρ c (Proc.devRef .tc main_v1) = (Cert.ReferenceIdeal.RefValue.edgeSources (F := Ideal) (m ((c : Thread nD τ).loc main_arg1))) :=
  (W2_of_ne m ρ c main_v1 (by decide)).trans (at1_v1 m ρ c)
theorem at1_v3 : W1 m ρ c (Proc.devRef .tc main_v3) = (Cert.ReferenceIdeal.RefValue.edgeTargets (F := Ideal) (m ((c : Thread nD τ).loc main_arg1))) := (launch_targets (W0 m ρ c))
theorem at2_v3 : W2 m ρ c (Proc.devRef .tc main_v3) = (Cert.ReferenceIdeal.RefValue.edgeTargets (F := Ideal) (m ((c : Thread nD τ).loc main_arg1))) :=
  (W2_of_ne m ρ c main_v3 (by decide)).trans (at1_v3 m ρ c)
theorem at5_arg4 : W5 m ρ c (Proc.devRef .tc main_arg4) = (m ((c : Thread nD τ).loc main_arg4)) :=
  (stretch1_keeps_arg4 (W2 m ρ c)).trans (at2_arg4 m ρ c)
theorem at6_arg4 : W6 m ρ c (Proc.devRef .tc main_arg4) = (m ((c : Thread nD τ).loc main_arg4)) :=
  (W6_of_ne m ρ c main_arg4 (by decide)).trans (at5_arg4 m ρ c)
theorem at5_arg5 : W5 m ρ c (Proc.devRef .tc main_arg5) = (m ((c : Thread nD τ).loc main_arg5)) :=
  (stretch1_keeps_arg5 (W2 m ρ c)).trans (at2_arg5 m ρ c)
theorem at6_arg5 : W6 m ρ c (Proc.devRef .tc main_arg5) = (m ((c : Thread nD τ).loc main_arg5)) :=
  (W6_of_ne m ρ c main_arg5 (by decide)).trans (at5_arg5 m ρ c)
theorem at5_arg6 : W5 m ρ c (Proc.devRef .tc main_arg6) = (m ((c : Thread nD τ).loc main_arg6)) :=
  (stretch1_keeps_arg6 (W2 m ρ c)).trans (at2_arg6 m ρ c)
theorem at6_arg6 : W6 m ρ c (Proc.devRef .tc main_arg6) = (m ((c : Thread nD τ).loc main_arg6)) :=
  (W6_of_ne m ρ c main_arg6 (by decide)).trans (at5_arg6 m ρ c)
theorem at5_arg7 : W5 m ρ c (Proc.devRef .tc main_arg7) = (m ((c : Thread nD τ).loc main_arg7)) :=
  (stretch1_keeps_arg7 (W2 m ρ c)).trans (at2_arg7 m ρ c)
theorem at6_arg7 : W6 m ρ c (Proc.devRef .tc main_arg7) = (m ((c : Thread nD τ).loc main_arg7)) :=
  (W6_of_ne m ρ c main_arg7 (by decide)).trans (at5_arg7 m ρ c)
theorem at5_v1 : W5 m ρ c (Proc.devRef .tc main_v1) = (Cert.ReferenceIdeal.RefValue.edgeSources (F := Ideal) (m ((c : Thread nD τ).loc main_arg1))) :=
  (stretch1_keeps_v1 (W2 m ρ c)).trans (at2_v1 m ρ c)
theorem at6_v1 : W6 m ρ c (Proc.devRef .tc main_v1) = (Cert.ReferenceIdeal.RefValue.edgeSources (F := Ideal) (m ((c : Thread nD τ).loc main_arg1))) :=
  (W6_of_ne m ρ c main_v1 (by decide)).trans (at5_v1 m ρ c)
theorem at5_v3 : W5 m ρ c (Proc.devRef .tc main_v3) = (Cert.ReferenceIdeal.RefValue.edgeTargets (F := Ideal) (m ((c : Thread nD τ).loc main_arg1))) :=
  (stretch1_keeps_v3 (W2 m ρ c)).trans (at2_v3 m ρ c)
theorem at6_v3 : W6 m ρ c (Proc.devRef .tc main_v3) = (Cert.ReferenceIdeal.RefValue.edgeTargets (F := Ideal) (m ((c : Thread nD τ).loc main_arg1))) :=
  (W6_of_ne m ρ c main_v3 (by decide)).trans (at5_v3 m ρ c)
theorem at7_arg5 : W7 m ρ c (Proc.devRef .tc main_arg5) = (m ((c : Thread nD τ).loc main_arg5)) :=
  (W7_of_ne m ρ c main_arg5 (by decide)).trans (at6_arg5 m ρ c)
theorem at7_arg6 : W7 m ρ c (Proc.devRef .tc main_arg6) = (m ((c : Thread nD τ).loc main_arg6)) :=
  (W7_of_ne m ρ c main_arg6 (by decide)).trans (at6_arg6 m ρ c)
theorem at7_arg7 : W7 m ρ c (Proc.devRef .tc main_arg7) = (m ((c : Thread nD τ).loc main_arg7)) :=
  (W7_of_ne m ρ c main_arg7 (by decide)).trans (at6_arg7 m ρ c)
theorem at7_v1 : W7 m ρ c (Proc.devRef .tc main_v1) = (Cert.ReferenceIdeal.RefValue.edgeSources (F := Ideal) (m ((c : Thread nD τ).loc main_arg1))) :=
  (W7_of_ne m ρ c main_v1 (by decide)).trans (at6_v1 m ρ c)
theorem at7_v3 : W7 m ρ c (Proc.devRef .tc main_v3) = (Cert.ReferenceIdeal.RefValue.edgeTargets (F := Ideal) (m ((c : Thread nD τ).loc main_arg1))) :=
  (W7_of_ne m ρ c main_v3 (by decide)).trans (at6_v3 m ρ c)
theorem at10_arg6 : W10 m ρ c (Proc.devRef .tc main_arg6) = (m ((c : Thread nD τ).loc main_arg6)) :=
  (stretch2_keeps_arg6 (W7 m ρ c)).trans (at7_arg6 m ρ c)
theorem at11_arg6 : W11 m ρ c (Proc.devRef .tc main_arg6) = (m ((c : Thread nD τ).loc main_arg6)) :=
  (W11_of_ne m ρ c main_arg6 (by decide)).trans (at10_arg6 m ρ c)
theorem at10_arg7 : W10 m ρ c (Proc.devRef .tc main_arg7) = (m ((c : Thread nD τ).loc main_arg7)) :=
  (stretch2_keeps_arg7 (W7 m ρ c)).trans (at7_arg7 m ρ c)
theorem at11_arg7 : W11 m ρ c (Proc.devRef .tc main_arg7) = (m ((c : Thread nD τ).loc main_arg7)) :=
  (W11_of_ne m ρ c main_arg7 (by decide)).trans (at10_arg7 m ρ c)
theorem at12_arg6 : W12 m ρ c (Proc.devRef .tc main_arg6) = (m ((c : Thread nD τ).loc main_arg6)) :=
  (tail_keeps_arg6 (W11 m ρ c)).trans (at11_arg6 m ρ c)

/-! ## The result buffer, stage by stage -/

/-- After the first evaluation: every row of `x` projected by `W1`. -/
theorem after_project1 : W2 m ρ c (Proc.devRef .tc main_v4) = (mapRows (a := 50000) (K := 256) (J := 64) (project (K := 256) (J := 64) (m ((c : Thread nD τ).loc main_arg2))) (m ((c : Thread nD τ).loc main_arg0))) :=
  (W2_arr m ρ c 2).trans ((ProjectIn.result (V1 m ρ) c).trans
    (mapRows_project_congr (a := 50000) (K := 256) (J := 64) (entry_w1 m ρ c) (entry_x m ρ c)))

/-- After the first long stretch: the aggregation of that. -/
theorem after_aggregate1 : W5 m ρ c (Proc.devRef .tc main_v44) = (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))) :=
  (stretch1_aggregates (W2 m ρ c)).trans
    (Cert.ReferenceIdeal.RefValue.aggregateOn_congr (F := Ideal) (after_project1 m ρ c) (at2_v1 m ρ c) (at2_v3 m ρ c))

/-- The first bias vector viewed as a row. -/
theorem bias1_row : W5 m ρ c (Proc.devRef .tc main_v45) = shapeCast S1x64 (m ((c : Thread nD τ).loc main_arg3)) shapeCasts_S64_S1x64 :=
  (stretch1_bias (W2 m ρ c)).trans (congrArg (fun b => shapeCast S1x64 b shapeCasts_S64_S1x64) (at2_arg3 m ρ c))

/-- After the second evaluation: the first hidden layer. -/
theorem after_rectify1 : W6 m ρ c (Proc.devRef .tc main_v46) = (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1)))) :=
  (W6_arr m ρ c 2).trans ((RectifyFirst.result (V5 m ρ) c).trans
    (mapRows_shiftRelu_congr (a := 50000) (J := 64) _
      ((congrArg (fun b => rowOf (a := 1) (b := 64) b 0) (bias1_row m ρ c)).trans (rowOf_vector_as_row (J := 64) (m ((c : Thread nD τ).loc main_arg3)) shapeCasts_S64_S1x64))
      (after_aggregate1 m ρ c)))

/-- After the third evaluation: every row of the first hidden layer projected by `W2`. -/
theorem after_project2 : W7 m ρ c (Proc.devRef .tc main_v47) = (mapRows (a := 50000) (K := 64) (J := 64) (project (K := 64) (J := 64) (m ((c : Thread nD τ).loc main_arg4))) (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))))) :=
  (W7_arr m ρ c 2).trans ((ProjectHidden.result (V6 m ρ) c).trans
    (mapRows_project_congr (a := 50000) (K := 64) (J := 64) (at6_arg4 m ρ c) (after_rectify1 m ρ c)))

/-- After the second long stretch: the aggregation of that. -/
theorem after_aggregate2 : W10 m ρ c (Proc.devRef .tc main_v87) = (Cert.ReferenceIdeal.RefValue.aggregate (F := Ideal) (mapRows (a := 50000) (K := 64) (J := 64) (project (K := 64) (J := 64) (m ((c : Thread nD τ).loc main_arg4))) (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))))) (m ((c : Thread nD τ).loc main_arg1))) :=
  (stretch2_aggregates (W7 m ρ c)).trans
    (Cert.ReferenceIdeal.RefValue.aggregateOn_congr (F := Ideal) (after_project2 m ρ c) (at7_v1 m ρ c) (at7_v3 m ρ c))

/-- The second bias vector viewed as a row. -/
theorem bias2_row : W10 m ρ c (Proc.devRef .tc main_v88) = shapeCast S1x64 (m ((c : Thread nD τ).loc main_arg5)) shapeCasts_S64_S1x64 :=
  (stretch2_bias (W7 m ρ c)).trans (congrArg (fun b => shapeCast S1x64 b shapeCasts_S64_S1x64) (at7_arg5 m ρ c))

/-- After the fourth evaluation: the second hidden layer. -/
theorem after_rectify2 : W11 m ρ c (Proc.devRef .tc main_v89) = (mapRows (a := 50000) (K := 64) (J := 64) (shiftRelu (J := 64) (Scalar.ofBits (F := Ideal) .f32 0x00000000#32) (fun j => (m ((c : Thread nD τ).loc main_arg5)) (ix1 j))) (Cert.ReferenceIdeal.RefValue.aggregate (F := Ideal) (mapRows (a := 50000) (K := 64) (J := 64) (project (K := 64) (J := 64) (m ((c : Thread nD τ).loc main_arg4))) (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))))) (m ((c : Thread nD τ).loc main_arg1)))) :=
  (W11_arr m ρ c 2).trans ((RectifySecond.result (V10 m ρ) c).trans
    (mapRows_shiftRelu_congr (a := 50000) (J := 64) _
      ((congrArg (fun b => rowOf (a := 1) (b := 64) b 0) (bias2_row m ρ c)).trans (rowOf_vector_as_row (J := 64) (m ((c : Thread nD τ).loc main_arg5)) shapeCasts_S64_S1x64))
      (after_aggregate2 m ρ c)))

/-- The last operation before the head leaves the second hidden layer in place … -/
theorem hidden2_kept : W12 m ρ c (Proc.devRef .tc main_v89) = (mapRows (a := 50000) (K := 64) (J := 64) (shiftRelu (J := 64) (Scalar.ofBits (F := Ideal) .f32 0x00000000#32) (fun j => (m ((c : Thread nD τ).loc main_arg5)) (ix1 j))) (Cert.ReferenceIdeal.RefValue.aggregate (F := Ideal) (mapRows (a := 50000) (K := 64) (J := 64) (project (K := 64) (J := 64) (m ((c : Thread nD τ).loc main_arg4))) (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))))) (m ((c : Thread nD τ).loc main_arg1)))) :=
  (tail_keeps_v89 (W11 m ρ c)).trans (after_rectify2 m ρ c)

/-- … and views the head's bias as a `[1, 1]` array. -/
theorem bias3_row : W12 m ρ c (Proc.devRef .tc main_v90) = shapeCast S1x1 (m ((c : Thread nD τ).loc main_arg7)) shapeCasts_S1_S1x1 :=
  (tail_bias (W11 m ρ c)).trans (congrArg (fun b => shapeCast S1x1 b shapeCasts_S1_S1x1) (at11_arg7 m ρ c))

/-- THE RESULT BUFFER after the run: every node's score. -/
theorem result : W13 m ρ c (Proc.devRef .tc main_v91) = (mapRows (a := 50000) (K := 64) (J := 1) (score (K := 64) (J := 1) (m ((c : Thread nD τ).loc main_arg6)) (fun j => (m ((c : Thread nD τ).loc main_arg7)) (ix1 j))) (mapRows (a := 50000) (K := 64) (J := 64) (shiftRelu (J := 64) (Scalar.ofBits (F := Ideal) .f32 0x00000000#32) (fun j => (m ((c : Thread nD τ).loc main_arg5)) (ix1 j))) (Cert.ReferenceIdeal.RefValue.aggregate (F := Ideal) (mapRows (a := 50000) (K := 64) (J := 64) (project (K := 64) (J := 64) (m ((c : Thread nD τ).loc main_arg4))) (mapRows (a := 50000) (K := 64) (J := 64) (shiftRelu (J := 64) (Scalar.ofBits (F := Ideal) .f32 0x00000000#32) (fun j => (m ((c : Thread nD τ).loc main_arg3)) (ix1 j))) (Cert.ReferenceIdeal.RefValue.aggregate (F := Ideal) (mapRows (a := 50000) (K := 256) (J := 64) (project (K := 256) (J := 64) (m ((c : Thread nD τ).loc main_arg2))) (m ((c : Thread nD τ).loc main_arg0))) (m ((c : Thread nD τ).loc main_arg1))))) (m ((c : Thread nD τ).loc main_arg1))))) :=
  (W13_arr m ρ c 3).trans ((ScoreHead.result (V12 m ρ) c).trans
    (mapRows_score_congr (a := 50000) (K := 64) (J := 1) (at12_arg6 m ρ c)
      ((congrArg (fun b => rowOf (a := 1) (b := 1) b 0) (bias3_row m ρ c)).trans (rowOf_vector_as_row (J := 1) (m ((c : Thread nD τ).loc main_arg7)) shapeCasts_S1_S1x1))
      (hidden2_kept m ρ c)))

end Cert.KernelIdeal.Chain

end
-- ==== Proof.RefLayers.lean ====
/-
  The reference's layers, row by row.

  Each of the reference's node-wise layers is `mapRows` of a row function (LibRowMaps.lean): a host matrix product is
  the projection of every row (`product1`, `product2`); the bias row broadcast down the rows, added, and the
  maximum with a zero array is the shifted rectifier of every row (`rectify_rows`); and the scoring head
  `1 / (1 + exp (−(h · Wc + bc)))` is the score of every row (`head_rows`) — the quotient, the sum with one, the
  exponential and the negation are, at every extended real, the logistic function's own definition, and the f32
  pattern of one denotes one. The reference's result is then the composition of those row maps around the
  aggregation (`classify_rows`), which is left as it is.
-/
import proofs.«142583_j82119774699583_1_alg».proof.Proof.RefRun
import proofs.«142583_j82119774699583_1_alg».proof.Proof.LibRowMaps
import Idealize.ShloMosaic.PureOps.IdealRules

noncomputable section

namespace Cert.ReferenceIdeal.RefLayers

open Cert.ReferenceIdeal Cert.ReferenceIdeal.Gen Cert.ReferenceIdeal.RefValue Idealize.ShloMosaic Idealize.ShloMosaic.ValueIdx
open Cert.RowLayers Cert.Layers

/-- Each of the three products' dimension numbers says "rows times columns". -/
theorem rowsTimesCols1 : RowsTimesCols dot_S50000x256_S256x64_S50000x64_1_0_0_1_n_n where
  rank := rfl
  size := rfl
  lhs0 := fun j q => by
    unfold DotDims.lhsIdx
    rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
    rfl
  lhs1 := fun j q => dot_S50000x256_S256x64_S50000x64_1_0_0_1_n_n.lhsIdx_val_of_single rfl j q
  rhs0 := fun j q => dot_S50000x256_S256x64_S50000x64_1_0_0_1_n_n.rhsIdx_val_of_single rfl j q
  rhs1 := fun j q => by
    unfold DotDims.rhsIdx
    rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
    rfl

theorem rowsTimesCols2 : RowsTimesCols dot_S50000x64_S64x64_S50000x64_1_0_0_1_n_n where
  rank := rfl
  size := rfl
  lhs0 := fun j q => by
    unfold DotDims.lhsIdx
    rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
    rfl
  lhs1 := fun j q => dot_S50000x64_S64x64_S50000x64_1_0_0_1_n_n.lhsIdx_val_of_single rfl j q
  rhs0 := fun j q => dot_S50000x64_S64x64_S50000x64_1_0_0_1_n_n.rhsIdx_val_of_single rfl j q
  rhs1 := fun j q => by
    unfold DotDims.rhsIdx
    rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
    rfl

theorem rowsTimesCols3 : RowsTimesCols dot_S50000x64_S64x1_S50000x1_1_0_0_1_n_n where
  rank := rfl
  size := rfl
  lhs0 := fun j q => by
    unfold DotDims.lhsIdx
    rw [dif_neg (show ¬(0 : Fin S50000x64.rank) ∈ dot_S50000x64_S64x1_S50000x1_1_0_0_1_n_n.lhsBatch by decide), dif_pos (show (0 : Fin S50000x64.rank) ∈ dot_S50000x64_S64x1_S50000x1_1_0_0_1_n_n.lhsNonContracting by decide)]
    rfl
  lhs1 := fun j q => dot_S50000x64_S64x1_S50000x1_1_0_0_1_n_n.lhsIdx_val_of_single rfl j q
  rhs0 := fun j q => dot_S50000x64_S64x1_S50000x1_1_0_0_1_n_n.rhsIdx_val_of_single rfl j q
  rhs1 := fun j q => by
    unfold DotDims.rhsIdx
    rw [dif_neg (show ¬(1 : Fin S64x1.rank) ∈ dot_S50000x64_S64x1_S50000x1_1_0_0_1_n_n.rhsBatch by decide), dif_pos (show (1 : Fin S64x1.rank) ∈ dot_S50000x64_S64x1_S50000x1_1_0_0_1_n_n.rhsNonContracting by decide)]
    rfl

/-- The first product is the projection of every row of `x` by `W1`. -/
theorem product1 (x : FVec Ideal S50000x256 .f32) (w : FVec Ideal S256x64 .f32) :
    Host.dotGeneral (F := Ideal) dot_S50000x256_S256x64_S50000x64_1_0_0_1_n_n none x w = mapRows (a := 50000) (K := 256) (J := 64) (project (K := 256) (J := 64) w) x :=
  eq_mapRows (a := 50000) (K := 256) (J := 64) _ _ _ (fun p => rowOf_dotGeneral rowsTimesCols1 none x w p)

/-- The second product is the projection of every row of the hidden layer by `W2`. -/
theorem product2 (h : FVec Ideal S50000x64 .f32) (w : FVec Ideal S64x64 .f32) :
    Host.dotGeneral (F := Ideal) dot_S50000x64_S64x64_S50000x64_1_0_0_1_n_n none h w = mapRows (a := 50000) (K := 64) (J := 64) (project (K := 64) (J := 64) w) h :=
  eq_mapRows (a := 50000) (K := 64) (J := 64) _ _ _ (fun p => rowOf_dotGeneral rowsTimesCols2 none h w p)

/-- Bias, then rectifier: the shifted rectifier of every row, the shift the bias vector read entry by entry. -/
theorem rectify_rows (agg : FVec Ideal S50000x64 .f32) (b : FVec Ideal S64 .f32) :
    rectify (F := Ideal) agg b = mapRows (a := 50000) (K := 64) (J := 64) (shiftRelu (J := 64) (Scalar.ofBits (F := Ideal) .f32 0x00000000#32) (fun j => b (ix1 j))) agg := by
  refine eq_mapRows (a := 50000) (K := 64) (J := 64) _ _ _ (fun p => ?_)
  unfold rectify
  rw [rowOf_maximumf_const, rowOf_addf, rowOf_broadcastInDim_vec]
  rfl

/-- The scoring head is the score of every row, the shift the one-entry bias vector. -/
theorem head_rows (h : FVec Ideal S50000x64 .f32) (wc : FVec Ideal S64x1 .f32) (bc : FVec Ideal S1 .f32) :
    head (F := Ideal) h wc bc = mapRows (a := 50000) (K := 64) (J := 1) (score (K := 64) (J := 1) wc (fun j => bc (ix1 j))) h := by
  refine eq_mapRows (a := 50000) (K := 64) (J := 1) _ _ _ (fun p => ?_)
  unfold head
  funext q
  show Ideal.div (Ideal.ofBits .f32 0x3F800000#32) (Ideal.ofBits .f32 0x3F800000#32 + Ideal.exp (-(rowOf (a := 50000) (b := 1) (addf (F := Ideal) (Host.dotGeneral (F := Ideal) dot_S50000x64_S64x1_S50000x1_1_0_0_1_n_n none h wc) (broadcastInDim S50000x1 ![0, 1] bcast_S1x1_S50000x1_0_1 (broadcastInDim S1x1 ![1] bcast_S1_S1x1_1 bc))) p q))) = _
  have one : Ideal.ofBits .f32 0x3F800000#32 = 1 := IdealRules.sign_bit.ideal_onePat .f32
  rw [one, rowOf_dense_host rowsTimesCols3]
  rfl

/-- THE REFERENCE'S RESULT, row by row: score ∘ rectify ∘ aggregate ∘ project ∘ rectify ∘ aggregate ∘ project. -/
theorem classify_rows (x : FVec Ideal S50000x256 .f32) (e : (⟨S2x800000, .i32⟩ : BufTy).Contents (Elt Ideal)) (w1 : FVec Ideal S256x64 .f32) (b1 : FVec Ideal S64 .f32)
    (w2 : FVec Ideal S64x64 .f32) (b2 : FVec Ideal S64 .f32) (wc : FVec Ideal S64x1 .f32) (bc : FVec Ideal S1 .f32) :
    classify (F := Ideal) x e w1 b1 w2 b2 wc bc
      = mapRows (a := 50000) (K := 64) (J := 1) (score (K := 64) (J := 1) wc (fun j => bc (ix1 j)))
          (mapRows (a := 50000) (K := 64) (J := 64) (shiftRelu (J := 64) (Scalar.ofBits (F := Ideal) .f32 0x00000000#32) (fun j => b2 (ix1 j)))
            (aggregate (F := Ideal)
              (mapRows (a := 50000) (K := 64) (J := 64) (project (K := 64) (J := 64) w2)
                (mapRows (a := 50000) (K := 64) (J := 64) (shiftRelu (J := 64) (Scalar.ofBits (F := Ideal) .f32 0x00000000#32) (fun j => b1 (ix1 j)))
                  (aggregate (F := Ideal) (mapRows (a := 50000) (K := 256) (J := 64) (project (K := 256) (J := 64) w1) x) e))) e)) := by
  unfold classify hidden2 hidden1
  rw [head_rows, rectify_rows, product2, rectify_rows, product1]

end Cert.ReferenceIdeal.RefLayers

end
-- ==== Proof.lean ====
/-
  A two-layer graph-convolution classifier: the row-tiled program against its plain array reference, over the
  extended reals.

  Both programs compute, for a feature array `x`, an edge list `e`, weights `W1, W2, Wc` and biases `b1, b2, bc`,
      logistic (relu (A (relu (A (x · W1) + b1) · W2) + b2) · Wc + bc),
  where `A` is the neighbourhood aggregation over the edge list extended by one self-loop per node, each edge weighted
  by the inverse square roots of its end nodes' degrees. The tiled program evaluates the five node-wise steps — two
  projections, two bias-and-rectifier steps, the scoring head — in 25 blocks of 2000 rows each, and the aggregation
  by the same array operations as the reference. Row by row each tiled step is the reference's step: a product into a
  zero accumulator is the product, a change of float format is the identity on extended reals, and the logistic
  function is by definition `1 / (1 + exp (−z))` at every extended real, infinities included. So the two results are
  one function of the arguments (`algebraic`), with no use of the inputs' finiteness. The aggregation is applied to
  equal features on both sides and is never opened.

  The tiled programs' termination and untouched arguments are the generated frame theorems; the reference's are read
  off its run (RefRun.lean). The idealization rewrote no operation, so it preserves the program trivially.
-/
import proofs.«142583_j82119774699583_1_alg».proof.Defs
import proofs.«142583_j82119774699583_1_alg».proof.Proof.Gen.Kernel
import proofs.«142583_j82119774699583_1_alg».proof.Proof.Gen.Kernel.Frame
import proofs.«142583_j82119774699583_1_alg».proof.Proof.Gen.KernelIdeal
import proofs.«142583_j82119774699583_1_alg».proof.Proof.Gen.KernelIdeal.Frame
import proofs.«142583_j82119774699583_1_alg».proof.Proof.Gen.ReferenceIdeal
import proofs.«142583_j82119774699583_1_alg».proof.Proof.Gen.Pre_finite_inputs
import proofs.«142583_j82119774699583_1_alg».proof.Proof.KernelRun
import proofs.«142583_j82119774699583_1_alg».proof.Proof.KernelChain
import proofs.«142583_j82119774699583_1_alg».proof.Proof.RefRun
import proofs.«142583_j82119774699583_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- Both programs, run from memories that agree on the arguments, end with the reference's function `classify` of the
    arguments in their result buffers: the tiled program's result buffer holds the row-by-row composition
    (KernelChain.lean), which is `classify` (RefLayers.lean); the reference's holds `classify` by its run. -/
theorem algebraic : Cert.algebraic_KernelIdeal_ReferenceIdeal := by
  intro m ρ m' ρ' _ hagree
  refine ⟨fun c => Cert.ReferenceIdeal.RefValue.classify (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans ((Cert.KernelIdeal.Chain.result m ρ c).trans
          (Cert.ReferenceIdeal.RefLayers.classify_rows _ _ _ _ _ _ _ _).symm), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
